-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000x1 : Shape := ⟨2, ![1000, 1]⟩
abbrev S_ : Shape := ⟨0, ![]⟩

class Facts : Prop where
  bcast_S_S1000x1 : S_.BroadcastsInDim S1000x1 (![] : Fin 0 → Fin S1000x1.rank)
  reducesTo_S1000x1_S_d0_1 : S1000x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000x1 .f32) : IVec S_ 1 :=
  let main_v0 : FVec F S1000x1 .f32 := Host.absf main_arg1
  let main_cst : FVec F S_ .f32 := constant S_ .f32 0x7F800000#32
  let main_v1 : FVec F S1000x1 .f32 := broadcastInDim S1000x1 ![] bcast_S_S1000x1 main_cst
  let main_v2 : IVec S1000x1 1 := cmpf .olt main_v0 main_v1
  let main_c : IVec S_ 1 := constantI S_ 1 1#1
  let main_v3 : IVec S_ 1 := (fun x v => Host.reduce IntOp.andi x v reducesTo_S1000x1_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000x1 : Shape := ⟨2, ![1000, 1]⟩
abbrev S1000 : Shape := ⟨1, ![1000]⟩
abbrev S1024 : Shape := ⟨1, ![1024]⟩
abbrev S_ : Shape := ⟨0, ![]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S16384, .i32⟩
  | .hbm, ⟨1, _⟩ => ⟨S1000x1, .f32⟩
  | .hbm, ⟨2, _⟩ => ⟨S1000, .f32⟩
  | .hbm, ⟨3, _⟩ => ⟨S16384, .f32⟩
  | .local .scVector .vmem, ⟨0, _⟩ => ⟨S1024, .i32⟩
  | .local .scVector .vmem, ⟨1, _⟩ => ⟨S1000, .f32⟩
  | .local .scVector .vmem, ⟨2, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]

def k0_chk1 (v7 : IVec S16 32) : Prop :=
  (∀ a x, ((![v7] : Fin 1 → IVec S16 32) a x).toNat < S1000.size a)
instance k0_chk1.dec : ∀ (v7 : IVec S16 32), Decidable (k0_chk1 v7) := fun v7 => decidable_of_iff' _ (Iff.of_eq (k0_chk1.eq_1 v7))
theorem k0_idx1_inb : ∀ (v7 : IVec S16 32) (k0_hw1 : k0_chk1 v7), ∀ a x, ((![v7] : Fin 1 → IVec S16 32) a x).toNat < S1000.size a := fun v7 k0_hw1 => k0_hw1

def k0_chk2 (v10 : IVec S16 32) : Prop :=
  (∀ a x, ((![v10] : Fin 1 → IVec S16 32) a x).toNat < S1000.size a)
instance k0_chk2.dec : ∀ (v10 : IVec S16 32), Decidable (k0_chk2 v10) := fun v10 => decidable_of_iff' _ (Iff.of_eq (k0_chk2.eq_1 v10))
theorem k0_idx2_inb : ∀ (v10 : IVec S16 32) (k0_hw2 : k0_chk2 v10), ∀ a x, ((![v10] : Fin 1 → IVec S16 32) a x).toNat < S1000.size a := fun v10 k0_hw2 => k0_hw2

def k0_chk3 (v13 : IVec S16 32) : Prop :=
  (∀ a x, ((![v13] : Fin 1 → IVec S16 32) a x).toNat < S1000.size a)
instance k0_chk3.dec : ∀ (v13 : IVec S16 32), Decidable (k0_chk3 v13) := fun v13 => decidable_of_iff' _ (Iff.of_eq (k0_chk3.eq_1 v13))
theorem k0_idx3_inb : ∀ (v13 : IVec S16 32) (k0_hw3 : k0_chk3 v13), ∀ a x, ((![v13] : Fin 1 → IVec S16 32) a x).toNat < S1000.size a := fun v13 k0_hw3 => k0_hw3

def k0_chk4 (v16 : IVec S16 32) : Prop :=
  (∀ a x, ((![v16] : Fin 1 → IVec S16 32) a x).toNat < S1000.size a)
instance k0_chk4.dec : ∀ (v16 : IVec S16 32), Decidable (k0_chk4 v16) := fun v16 => decidable_of_iff' _ (Iff.of_eq (k0_chk4.eq_1 v16))
theorem k0_idx4_inb : ∀ (v16 : IVec S16 32) (k0_hw4 : k0_chk4 v16), ∀ a x, ((![v16] : Fin 1 → IVec S16 32) a x).toNat < S1000.size a := fun v16 k0_hw4 => k0_hw4

def k0_chk5 (v19 : IVec S16 32) : Prop :=
  (∀ a x, ((![v19] : Fin 1 → IVec S16 32) a x).toNat < S1000.size a)
instance k0_chk5.dec : ∀ (v19 : IVec S16 32), Decidable (k0_chk5 v19) := fun v19 => decidable_of_iff' _ (Iff.of_eq (k0_chk5.eq_1 v19))
theorem k0_idx5_inb : ∀ (v19 : IVec S16 32) (k0_hw5 : k0_chk5 v19), ∀ a x, ((![v19] : Fin 1 → IVec S16 32) a x).toNat < S1000.size a := fun v19 k0_hw5 => k0_hw5

def k0_chk6 (v22 : IVec S16 32) : Prop :=
  (∀ a x, ((![v22] : Fin 1 → IVec S16 32) a x).toNat < S1000.size a)
instance k0_chk6.dec : ∀ (v22 : IVec S16 32), Decidable (k0_chk6 v22) := fun v22 => decidable_of_iff' _ (Iff.of_eq (k0_chk6.eq_1 v22))
theorem k0_idx6_inb : ∀ (v22 : IVec S16 32) (k0_hw6 : k0_chk6 v22), ∀ a x, ((![v22] : Fin 1 → IVec S16 32) a x).toNat < S1000.size a := fun v22 k0_hw6 => k0_hw6

def k0_chk7 (v25 : IVec S16 32) : Prop :=
  (∀ a x, ((![v25] : Fin 1 → IVec S16 32) a x).toNat < S1000.size a)
instance k0_chk7.dec : ∀ (v25 : IVec S16 32), Decidable (k0_chk7 v25) := fun v25 => decidable_of_iff' _ (Iff.of_eq (k0_chk7.eq_1 v25))
theorem k0_idx7_inb : ∀ (v25 : IVec S16 32) (k0_hw7 : k0_chk7 v25), ∀ a x, ((![v25] : Fin 1 → IVec S16 32) a x).toNat < S1000.size a := fun v25 k0_hw7 => k0_hw7

def k0_chk8 (v28 : IVec S16 32) : Prop :=
  (∀ a x, ((![v28] : Fin 1 → IVec S16 32) a x).toNat < S1000.size a)
instance k0_chk8.dec : ∀ (v28 : IVec S16 32), Decidable (k0_chk8 v28) := fun v28 => decidable_of_iff' _ (Iff.of_eq (k0_chk8.eq_1 v28))
theorem k0_idx8_inb : ∀ (v28 : IVec S16 32) (k0_hw8 : k0_chk8 v28), ∀ a x, ((![v28] : Fin 1 → IVec S16 32) a x).toNat < S1000.size a := fun v28 k0_hw8 => k0_hw8

def k0_chk9 (v31 : IVec S16 32) : Prop :=
  (∀ a x, ((![v31] : Fin 1 → IVec S16 32) a x).toNat < S1000.size a)
instance k0_chk9.dec : ∀ (v31 : IVec S16 32), Decidable (k0_chk9 v31) := fun v31 => decidable_of_iff' _ (Iff.of_eq (k0_chk9.eq_1 v31))
theorem k0_idx9_inb : ∀ (v31 : IVec S16 32) (k0_hw9 : k0_chk9 v31), ∀ a x, ((![v31] : Fin 1 → IVec S16 32) a x).toNat < S1000.size a := fun v31 k0_hw9 => k0_hw9

def k0_chk10 (v34 : IVec S16 32) : Prop :=
  (∀ a x, ((![v34] : Fin 1 → IVec S16 32) a x).toNat < S1000.size a)
instance k0_chk10.dec : ∀ (v34 : IVec S16 32), Decidable (k0_chk10 v34) := fun v34 => decidable_of_iff' _ (Iff.of_eq (k0_chk10.eq_1 v34))
theorem k0_idx10_inb : ∀ (v34 : IVec S16 32) (k0_hw10 : k0_chk10 v34), ∀ a x, ((![v34] : Fin 1 → IVec S16 32) a x).toNat < S1000.size a := fun v34 k0_hw10 => k0_hw10

def k0_chk11 (v37 : IVec S16 32) : Prop :=
  (∀ a x, ((![v37] : Fin 1 → IVec S16 32) a x).toNat < S1000.size a)
instance k0_chk11.dec : ∀ (v37 : IVec S16 32), Decidable (k0_chk11 v37) := fun v37 => decidable_of_iff' _ (Iff.of_eq (k0_chk11.eq_1 v37))
theorem k0_idx11_inb : ∀ (v37 : IVec S16 32) (k0_hw11 : k0_chk11 v37), ∀ a x, ((![v37] : Fin 1 → IVec S16 32) a x).toNat < S1000.size a := fun v37 k0_hw11 => k0_hw11

def k0_chk12 (v40 : IVec S16 32) : Prop :=
  (∀ a x, ((![v40] : Fin 1 → IVec S16 32) a x).toNat < S1000.size a)
instance k0_chk12.dec : ∀ (v40 : IVec S16 32), Decidable (k0_chk12 v40) := fun v40 => decidable_of_iff' _ (Iff.of_eq (k0_chk12.eq_1 v40))
theorem k0_idx12_inb : ∀ (v40 : IVec S16 32) (k0_hw12 : k0_chk12 v40), ∀ a x, ((![v40] : Fin 1 → IVec S16 32) a x).toNat < S1000.size a := fun v40 k0_hw12 => k0_hw12

def k0_chk13 (v43 : IVec S16 32) : Prop :=
  (∀ a x, ((![v43] : Fin 1 → IVec S16 32) a x).toNat < S1000.size a)
instance k0_chk13.dec : ∀ (v43 : IVec S16 32), Decidable (k0_chk13 v43) := fun v43 => decidable_of_iff' _ (Iff.of_eq (k0_chk13.eq_1 v43))
theorem k0_idx13_inb : ∀ (v43 : IVec S16 32) (k0_hw13 : k0_chk13 v43), ∀ a x, ((![v43] : Fin 1 → IVec S16 32) a x).toNat < S1000.size a := fun v43 k0_hw13 => k0_hw13

def k0_chk14 (v46 : IVec S16 32) : Prop :=
  (∀ a x, ((![v46] : Fin 1 → IVec S16 32) a x).toNat < S1000.size a)
instance k0_chk14.dec : ∀ (v46 : IVec S16 32), Decidable (k0_chk14 v46) := fun v46 => decidable_of_iff' _ (Iff.of_eq (k0_chk14.eq_1 v46))
theorem k0_idx14_inb : ∀ (v46 : IVec S16 32) (k0_hw14 : k0_chk14 v46), ∀ a x, ((![v46] : Fin 1 → IVec S16 32) a x).toNat < S1000.size a := fun v46 k0_hw14 => k0_hw14

def k0_chk15 (v49 : IVec S16 32) : Prop :=
  (∀ a x, ((![v49] : Fin 1 → IVec S16 32) a x).toNat < S1000.size a)
instance k0_chk15.dec : ∀ (v49 : IVec S16 32), Decidable (k0_chk15 v49) := fun v49 => decidable_of_iff' _ (Iff.of_eq (k0_chk15.eq_1 v49))
theorem k0_idx15_inb : ∀ (v49 : IVec S16 32) (k0_hw15 : k0_chk15 v49), ∀ a x, ((![v49] : Fin 1 → IVec S16 32) a x).toNat < S1000.size a := fun v49 k0_hw15 => k0_hw15

def k0_chk16 (v52 : IVec S16 32) : Prop :=
  (∀ a x, ((![v52] : Fin 1 → IVec S16 32) a x).toNat < S1000.size a)
instance k0_chk16.dec : ∀ (v52 : IVec S16 32), Decidable (k0_chk16 v52) := fun v52 => decidable_of_iff' _ (Iff.of_eq (k0_chk16.eq_1 v52))
theorem k0_idx16_inb : ∀ (v52 : IVec S16 32) (k0_hw16 : k0_chk16 v52), ∀ a x, ((![v52] : Fin 1 → IVec S16 32) a x).toNat < S1000.size a := fun v52 k0_hw16 => k0_hw16

def k0_chk17 (v55 : IVec S16 32) : Prop :=
  (∀ a x, ((![v55] : Fin 1 → IVec S16 32) a x).toNat < S1000.size a)
instance k0_chk17.dec : ∀ (v55 : IVec S16 32), Decidable (k0_chk17 v55) := fun v55 => decidable_of_iff' _ (Iff.of_eq (k0_chk17.eq_1 v55))
theorem k0_idx17_inb : ∀ (v55 : IVec S16 32) (k0_hw17 : k0_chk17 v55), ∀ a x, ((![v55] : Fin 1 → IVec S16 32) a x).toNat < S1000.size a := fun v55 k0_hw17 => k0_hw17

def k0_chk18 (v58 : IVec S16 32) : Prop :=
  (∀ a x, ((![v58] : Fin 1 → IVec S16 32) a x).toNat < S1000.size a)
instance k0_chk18.dec : ∀ (v58 : IVec S16 32), Decidable (k0_chk18 v58) := fun v58 => decidable_of_iff' _ (Iff.of_eq (k0_chk18.eq_1 v58))
theorem k0_idx18_inb : ∀ (v58 : IVec S16 32) (k0_hw18 : k0_chk18 v58), ∀ a x, ((![v58] : Fin 1 → IVec S16 32) a x).toNat < S1000.size a := fun v58 k0_hw18 => k0_hw18

def k0_chk19 (v61 : IVec S16 32) : Prop :=
  (∀ a x, ((![v61] : Fin 1 → IVec S16 32) a x).toNat < S1000.size a)
instance k0_chk19.dec : ∀ (v61 : IVec S16 32), Decidable (k0_chk19 v61) := fun v61 => decidable_of_iff' _ (Iff.of_eq (k0_chk19.eq_1 v61))
theorem k0_idx19_inb : ∀ (v61 : IVec S16 32) (k0_hw19 : k0_chk19 v61), ∀ a x, ((![v61] : Fin 1 → IVec S16 32) a x).toNat < S1000.size a := fun v61 k0_hw19 => k0_hw19

def k0_chk20 (v64 : IVec S16 32) : Prop :=
  (∀ a x, ((![v64] : Fin 1 → IVec S16 32) a x).toNat < S1000.size a)
instance k0_chk20.dec : ∀ (v64 : IVec S16 32), Decidable (k0_chk20 v64) := fun v64 => decidable_of_iff' _ (Iff.of_eq (k0_chk20.eq_1 v64))
theorem k0_idx20_inb : ∀ (v64 : IVec S16 32) (k0_hw20 : k0_chk20 v64), ∀ a x, ((![v64] : Fin 1 → IVec S16 32) a x).toNat < S1000.size a := fun v64 k0_hw20 => k0_hw20

def k0_chk21 (v67 : IVec S16 32) : Prop :=
  (∀ a x, ((![v67] : Fin 1 → IVec S16 32) a x).toNat < S1000.size a)
instance k0_chk21.dec : ∀ (v67 : IVec S16 32), Decidable (k0_chk21 v67) := fun v67 => decidable_of_iff' _ (Iff.of_eq (k0_chk21.eq_1 v67))
theorem k0_idx21_inb : ∀ (v67 : IVec S16 32) (k0_hw21 : k0_chk21 v67), ∀ a x, ((![v67] : Fin 1 → IVec S16 32) a x).toNat < S1000.size a := fun v67 k0_hw21 => k0_hw21

def k0_chk22 (v70 : IVec S16 32) : Prop :=
  (∀ a x, ((![v70] : Fin 1 → IVec S16 32) a x).toNat < S1000.size a)
instance k0_chk22.dec : ∀ (v70 : IVec S16 32), Decidable (k0_chk22 v70) := fun v70 => decidable_of_iff' _ (Iff.of_eq (k0_chk22.eq_1 v70))
theorem k0_idx22_inb : ∀ (v70 : IVec S16 32) (k0_hw22 : k0_chk22 v70), ∀ a x, ((![v70] : Fin 1 → IVec S16 32) a x).toNat < S1000.size a := fun v70 k0_hw22 => k0_hw22

def k0_chk23 (v73 : IVec S16 32) : Prop :=
  (∀ a x, ((![v73] : Fin 1 → IVec S16 32) a x).toNat < S1000.size a)
instance k0_chk23.dec : ∀ (v73 : IVec S16 32), Decidable (k0_chk23 v73) := fun v73 => decidable_of_iff' _ (Iff.of_eq (k0_chk23.eq_1 v73))
theorem k0_idx23_inb : ∀ (v73 : IVec S16 32) (k0_hw23 : k0_chk23 v73), ∀ a x, ((![v73] : Fin 1 → IVec S16 32) a x).toNat < S1000.size a := fun v73 k0_hw23 => k0_hw23

def k0_chk24 (v76 : IVec S16 32) : Prop :=
  (∀ a x, ((![v76] : Fin 1 → IVec S16 32) a x).toNat < S1000.size a)
instance k0_chk24.dec : ∀ (v76 : IVec S16 32), Decidable (k0_chk24 v76) := fun v76 => decidable_of_iff' _ (Iff.of_eq (k0_chk24.eq_1 v76))
theorem k0_idx24_inb : ∀ (v76 : IVec S16 32) (k0_hw24 : k0_chk24 v76), ∀ a x, ((![v76] : Fin 1 → IVec S16 32) a x).toNat < S1000.size a := fun v76 k0_hw24 => k0_hw24

def k0_chk25 (v79 : IVec S16 32) : Prop :=
  (∀ a x, ((![v79] : Fin 1 → IVec S16 32) a x).toNat < S1000.size a)
instance k0_chk25.dec : ∀ (v79 : IVec S16 32), Decidable (k0_chk25 v79) := fun v79 => decidable_of_iff' _ (Iff.of_eq (k0_chk25.eq_1 v79))
theorem k0_idx25_inb : ∀ (v79 : IVec S16 32) (k0_hw25 : k0_chk25 v79), ∀ a x, ((![v79] : Fin 1 → IVec S16 32) a x).toNat < S1000.size a := fun v79 k0_hw25 => k0_hw25

def k0_chk26 (v82 : IVec S16 32) : Prop :=
  (∀ a x, ((![v82] : Fin 1 → IVec S16 32) a x).toNat < S1000.size a)
instance k0_chk26.dec : ∀ (v82 : IVec S16 32), Decidable (k0_chk26 v82) := fun v82 => decidable_of_iff' _ (Iff.of_eq (k0_chk26.eq_1 v82))
theorem k0_idx26_inb : ∀ (v82 : IVec S16 32) (k0_hw26 : k0_chk26 v82), ∀ a x, ((![v82] : Fin 1 → IVec S16 32) a x).toNat < S1000.size a := fun v82 k0_hw26 => k0_hw26

def k0_chk27 (v85 : IVec S16 32) : Prop :=
  (∀ a x, ((![v85] : Fin 1 → IVec S16 32) a x).toNat < S1000.size a)
instance k0_chk27.dec : ∀ (v85 : IVec S16 32), Decidable (k0_chk27 v85) := fun v85 => decidable_of_iff' _ (Iff.of_eq (k0_chk27.eq_1 v85))
theorem k0_idx27_inb : ∀ (v85 : IVec S16 32) (k0_hw27 : k0_chk27 v85), ∀ a x, ((![v85] : Fin 1 → IVec S16 32) a x).toNat < S1000.size a := fun v85 k0_hw27 => k0_hw27

def k0_chk28 (v88 : IVec S16 32) : Prop :=
  (∀ a x, ((![v88] : Fin 1 → IVec S16 32) a x).toNat < S1000.size a)
instance k0_chk28.dec : ∀ (v88 : IVec S16 32), Decidable (k0_chk28 v88) := fun v88 => decidable_of_iff' _ (Iff.of_eq (k0_chk28.eq_1 v88))
theorem k0_idx28_inb : ∀ (v88 : IVec S16 32) (k0_hw28 : k0_chk28 v88), ∀ a x, ((![v88] : Fin 1 → IVec S16 32) a x).toNat < S1000.size a := fun v88 k0_hw28 => k0_hw28

def k0_chk29 (v91 : IVec S16 32) : Prop :=
  (∀ a x, ((![v91] : Fin 1 → IVec S16 32) a x).toNat < S1000.size a)
instance k0_chk29.dec : ∀ (v91 : IVec S16 32), Decidable (k0_chk29 v91) := fun v91 => decidable_of_iff' _ (Iff.of_eq (k0_chk29.eq_1 v91))
theorem k0_idx29_inb : ∀ (v91 : IVec S16 32) (k0_hw29 : k0_chk29 v91), ∀ a x, ((![v91] : Fin 1 → IVec S16 32) a x).toNat < S1000.size a := fun v91 k0_hw29 => k0_hw29

def k0_chk30 (v94 : IVec S16 32) : Prop :=
  (∀ a x, ((![v94] : Fin 1 → IVec S16 32) a x).toNat < S1000.size a)
instance k0_chk30.dec : ∀ (v94 : IVec S16 32), Decidable (k0_chk30 v94) := fun v94 => decidable_of_iff' _ (Iff.of_eq (k0_chk30.eq_1 v94))
theorem k0_idx30_inb : ∀ (v94 : IVec S16 32) (k0_hw30 : k0_chk30 v94), ∀ a x, ((![v94] : Fin 1 → IVec S16 32) a x).toNat < S1000.size a := fun v94 k0_hw30 => k0_hw30

def k0_chk31 (v97 : IVec S16 32) : Prop :=
  (∀ a x, ((![v97] : Fin 1 → IVec S16 32) a x).toNat < S1000.size a)
instance k0_chk31.dec : ∀ (v97 : IVec S16 32), Decidable (k0_chk31 v97) := fun v97 => decidable_of_iff' _ (Iff.of_eq (k0_chk31.eq_1 v97))
theorem k0_idx31_inb : ∀ (v97 : IVec S16 32) (k0_hw31 : k0_chk31 v97), ∀ a x, ((![v97] : Fin 1 → IVec S16 32) a x).toNat < S1000.size a := fun v97 k0_hw31 => k0_hw31

def k0_chk32 (v100 : IVec S16 32) : Prop :=
  (∀ a x, ((![v100] : Fin 1 → IVec S16 32) a x).toNat < S1000.size a)
instance k0_chk32.dec : ∀ (v100 : IVec S16 32), Decidable (k0_chk32 v100) := fun v100 => decidable_of_iff' _ (Iff.of_eq (k0_chk32.eq_1 v100))
theorem k0_idx32_inb : ∀ (v100 : IVec S16 32) (k0_hw32 : k0_chk32 v100), ∀ a x, ((![v100] : Fin 1 → IVec S16 32) a x).toNat < S1000.size a := fun v100 k0_hw32 => k0_hw32

def k0_chk33 (v103 : IVec S16 32) : Prop :=
  (∀ a x, ((![v103] : Fin 1 → IVec S16 32) a x).toNat < S1000.size a)
instance k0_chk33.dec : ∀ (v103 : IVec S16 32), Decidable (k0_chk33 v103) := fun v103 => decidable_of_iff' _ (Iff.of_eq (k0_chk33.eq_1 v103))
theorem k0_idx33_inb : ∀ (v103 : IVec S16 32) (k0_hw33 : k0_chk33 v103), ∀ a x, ((![v103] : Fin 1 → IVec S16 32) a x).toNat < S1000.size a := fun v103 k0_hw33 => k0_hw33

def k0_chk34 (v106 : IVec S16 32) : Prop :=
  (∀ a x, ((![v106] : Fin 1 → IVec S16 32) a x).toNat < S1000.size a)
instance k0_chk34.dec : ∀ (v106 : IVec S16 32), Decidable (k0_chk34 v106) := fun v106 => decidable_of_iff' _ (Iff.of_eq (k0_chk34.eq_1 v106))
theorem k0_idx34_inb : ∀ (v106 : IVec S16 32) (k0_hw34 : k0_chk34 v106), ∀ a x, ((![v106] : Fin 1 → IVec S16 32) a x).toNat < S1000.size a := fun v106 k0_hw34 => k0_hw34

def k0_chk35 (v109 : IVec S16 32) : Prop :=
  (∀ a x, ((![v109] : Fin 1 → IVec S16 32) a x).toNat < S1000.size a)
instance k0_chk35.dec : ∀ (v109 : IVec S16 32), Decidable (k0_chk35 v109) := fun v109 => decidable_of_iff' _ (Iff.of_eq (k0_chk35.eq_1 v109))
theorem k0_idx35_inb : ∀ (v109 : IVec S16 32) (k0_hw35 : k0_chk35 v109), ∀ a x, ((![v109] : Fin 1 → IVec S16 32) a x).toNat < S1000.size a := fun v109 k0_hw35 => k0_hw35

def k0_chk36 (v112 : IVec S16 32) : Prop :=
  (∀ a x, ((![v112] : Fin 1 → IVec S16 32) a x).toNat < S1000.size a)
instance k0_chk36.dec : ∀ (v112 : IVec S16 32), Decidable (k0_chk36 v112) := fun v112 => decidable_of_iff' _ (Iff.of_eq (k0_chk36.eq_1 v112))
theorem k0_idx36_inb : ∀ (v112 : IVec S16 32) (k0_hw36 : k0_chk36 v112), ∀ a x, ((![v112] : Fin 1 → IVec S16 32) a x).toNat < S1000.size a := fun v112 k0_hw36 => k0_hw36

def k0_chk37 (v115 : IVec S16 32) : Prop :=
  (∀ a x, ((![v115] : Fin 1 → IVec S16 32) a x).toNat < S1000.size a)
instance k0_chk37.dec : ∀ (v115 : IVec S16 32), Decidable (k0_chk37 v115) := fun v115 => decidable_of_iff' _ (Iff.of_eq (k0_chk37.eq_1 v115))
theorem k0_idx37_inb : ∀ (v115 : IVec S16 32) (k0_hw37 : k0_chk37 v115), ∀ a x, ((![v115] : Fin 1 → IVec S16 32) a x).toNat < S1000.size a := fun v115 k0_hw37 => k0_hw37

def k0_chk38 (v118 : IVec S16 32) : Prop :=
  (∀ a x, ((![v118] : Fin 1 → IVec S16 32) a x).toNat < S1000.size a)
instance k0_chk38.dec : ∀ (v118 : IVec S16 32), Decidable (k0_chk38 v118) := fun v118 => decidable_of_iff' _ (Iff.of_eq (k0_chk38.eq_1 v118))
theorem k0_idx38_inb : ∀ (v118 : IVec S16 32) (k0_hw38 : k0_chk38 v118), ∀ a x, ((![v118] : Fin 1 → IVec S16 32) a x).toNat < S1000.size a := fun v118 k0_hw38 => k0_hw38

def k0_chk39 (v121 : IVec S16 32) : Prop :=
  (∀ a x, ((![v121] : Fin 1 → IVec S16 32) a x).toNat < S1000.size a)
instance k0_chk39.dec : ∀ (v121 : IVec S16 32), Decidable (k0_chk39 v121) := fun v121 => decidable_of_iff' _ (Iff.of_eq (k0_chk39.eq_1 v121))
theorem k0_idx39_inb : ∀ (v121 : IVec S16 32) (k0_hw39 : k0_chk39 v121), ∀ a x, ((![v121] : Fin 1 → IVec S16 32) a x).toNat < S1000.size a := fun v121 k0_hw39 => k0_hw39

def k0_chk40 (v124 : IVec S16 32) : Prop :=
  (∀ a x, ((![v124] : Fin 1 → IVec S16 32) a x).toNat < S1000.size a)
instance k0_chk40.dec : ∀ (v124 : IVec S16 32), Decidable (k0_chk40 v124) := fun v124 => decidable_of_iff' _ (Iff.of_eq (k0_chk40.eq_1 v124))
theorem k0_idx40_inb : ∀ (v124 : IVec S16 32) (k0_hw40 : k0_chk40 v124), ∀ a x, ((![v124] : Fin 1 → IVec S16 32) a x).toNat < S1000.size a := fun v124 k0_hw40 => k0_hw40

def k0_chk41 (v127 : IVec S16 32) : Prop :=
  (∀ a x, ((![v127] : Fin 1 → IVec S16 32) a x).toNat < S1000.size a)
instance k0_chk41.dec : ∀ (v127 : IVec S16 32), Decidable (k0_chk41 v127) := fun v127 => decidable_of_iff' _ (Iff.of_eq (k0_chk41.eq_1 v127))
theorem k0_idx41_inb : ∀ (v127 : IVec S16 32) (k0_hw41 : k0_chk41 v127), ∀ a x, ((![v127] : Fin 1 → IVec S16 32) a x).toNat < S1000.size a := fun v127 k0_hw41 => k0_hw41

def k0_chk42 (v130 : IVec S16 32) : Prop :=
  (∀ a x, ((![v130] : Fin 1 → IVec S16 32) a x).toNat < S1000.size a)
instance k0_chk42.dec : ∀ (v130 : IVec S16 32), Decidable (k0_chk42 v130) := fun v130 => decidable_of_iff' _ (Iff.of_eq (k0_chk42.eq_1 v130))
theorem k0_idx42_inb : ∀ (v130 : IVec S16 32) (k0_hw42 : k0_chk42 v130), ∀ a x, ((![v130] : Fin 1 → IVec S16 32) a x).toNat < S1000.size a := fun v130 k0_hw42 => k0_hw42

def k0_chk43 (v133 : IVec S16 32) : Prop :=
  (∀ a x, ((![v133] : Fin 1 → IVec S16 32) a x).toNat < S1000.size a)
instance k0_chk43.dec : ∀ (v133 : IVec S16 32), Decidable (k0_chk43 v133) := fun v133 => decidable_of_iff' _ (Iff.of_eq (k0_chk43.eq_1 v133))
theorem k0_idx43_inb : ∀ (v133 : IVec S16 32) (k0_hw43 : k0_chk43 v133), ∀ a x, ((![v133] : Fin 1 → IVec S16 32) a x).toNat < S1000.size a := fun v133 k0_hw43 => k0_hw43

def k0_chk44 (v136 : IVec S16 32) : Prop :=
  (∀ a x, ((![v136] : Fin 1 → IVec S16 32) a x).toNat < S1000.size a)
instance k0_chk44.dec : ∀ (v136 : IVec S16 32), Decidable (k0_chk44 v136) := fun v136 => decidable_of_iff' _ (Iff.of_eq (k0_chk44.eq_1 v136))
theorem k0_idx44_inb : ∀ (v136 : IVec S16 32) (k0_hw44 : k0_chk44 v136), ∀ a x, ((![v136] : Fin 1 → IVec S16 32) a x).toNat < S1000.size a := fun v136 k0_hw44 => k0_hw44

def k0_chk45 (v139 : IVec S16 32) : Prop :=
  (∀ a x, ((![v139] : Fin 1 → IVec S16 32) a x).toNat < S1000.size a)
instance k0_chk45.dec : ∀ (v139 : IVec S16 32), Decidable (k0_chk45 v139) := fun v139 => decidable_of_iff' _ (Iff.of_eq (k0_chk45.eq_1 v139))
theorem k0_idx45_inb : ∀ (v139 : IVec S16 32) (k0_hw45 : k0_chk45 v139), ∀ a x, ((![v139] : Fin 1 → IVec S16 32) a x).toNat < S1000.size a := fun v139 k0_hw45 => k0_hw45

def k0_chk46 (v142 : IVec S16 32) : Prop :=
  (∀ a x, ((![v142] : Fin 1 → IVec S16 32) a x).toNat < S1000.size a)
instance k0_chk46.dec : ∀ (v142 : IVec S16 32), Decidable (k0_chk46 v142) := fun v142 => decidable_of_iff' _ (Iff.of_eq (k0_chk46.eq_1 v142))
theorem k0_idx46_inb : ∀ (v142 : IVec S16 32) (k0_hw46 : k0_chk46 v142), ∀ a x, ((![v142] : Fin 1 → IVec S16 32) a x).toNat < S1000.size a := fun v142 k0_hw46 => k0_hw46

def k0_chk47 (v145 : IVec S16 32) : Prop :=
  (∀ a x, ((![v145] : Fin 1 → IVec S16 32) a x).toNat < S1000.size a)
instance k0_chk47.dec : ∀ (v145 : IVec S16 32), Decidable (k0_chk47 v145) := fun v145 => decidable_of_iff' _ (Iff.of_eq (k0_chk47.eq_1 v145))
theorem k0_idx47_inb : ∀ (v145 : IVec S16 32) (k0_hw47 : k0_chk47 v145), ∀ a x, ((![v145] : Fin 1 → IVec S16 32) a x).toNat < S1000.size a := fun v145 k0_hw47 => k0_hw47

def k0_chk48 (v148 : IVec S16 32) : Prop :=
  (∀ a x, ((![v148] : Fin 1 → IVec S16 32) a x).toNat < S1000.size a)
instance k0_chk48.dec : ∀ (v148 : IVec S16 32), Decidable (k0_chk48 v148) := fun v148 => decidable_of_iff' _ (Iff.of_eq (k0_chk48.eq_1 v148))
theorem k0_idx48_inb : ∀ (v148 : IVec S16 32) (k0_hw48 : k0_chk48 v148), ∀ a x, ((![v148] : Fin 1 → IVec S16 32) a x).toNat < S1000.size a := fun v148 k0_hw48 => k0_hw48

def k0_chk49 (v151 : IVec S16 32) : Prop :=
  (∀ a x, ((![v151] : Fin 1 → IVec S16 32) a x).toNat < S1000.size a)
instance k0_chk49.dec : ∀ (v151 : IVec S16 32), Decidable (k0_chk49 v151) := fun v151 => decidable_of_iff' _ (Iff.of_eq (k0_chk49.eq_1 v151))
theorem k0_idx49_inb : ∀ (v151 : IVec S16 32) (k0_hw49 : k0_chk49 v151), ∀ a x, ((![v151] : Fin 1 → IVec S16 32) a x).toNat < S1000.size a := fun v151 k0_hw49 => k0_hw49

def k0_chk50 (v154 : IVec S16 32) : Prop :=
  (∀ a x, ((![v154] : Fin 1 → IVec S16 32) a x).toNat < S1000.size a)
instance k0_chk50.dec : ∀ (v154 : IVec S16 32), Decidable (k0_chk50 v154) := fun v154 => decidable_of_iff' _ (Iff.of_eq (k0_chk50.eq_1 v154))
theorem k0_idx50_inb : ∀ (v154 : IVec S16 32) (k0_hw50 : k0_chk50 v154), ∀ a x, ((![v154] : Fin 1 → IVec S16 32) a x).toNat < S1000.size a := fun v154 k0_hw50 => k0_hw50

def k0_chk51 (v157 : IVec S16 32) : Prop :=
  (∀ a x, ((![v157] : Fin 1 → IVec S16 32) a x).toNat < S1000.size a)
instance k0_chk51.dec : ∀ (v157 : IVec S16 32), Decidable (k0_chk51 v157) := fun v157 => decidable_of_iff' _ (Iff.of_eq (k0_chk51.eq_1 v157))
theorem k0_idx51_inb : ∀ (v157 : IVec S16 32) (k0_hw51 : k0_chk51 v157), ∀ a x, ((![v157] : Fin 1 → IVec S16 32) a x).toNat < S1000.size a := fun v157 k0_hw51 => k0_hw51

def k0_chk52 (v160 : IVec S16 32) : Prop :=
  (∀ a x, ((![v160] : Fin 1 → IVec S16 32) a x).toNat < S1000.size a)
instance k0_chk52.dec : ∀ (v160 : IVec S16 32), Decidable (k0_chk52 v160) := fun v160 => decidable_of_iff' _ (Iff.of_eq (k0_chk52.eq_1 v160))
theorem k0_idx52_inb : ∀ (v160 : IVec S16 32) (k0_hw52 : k0_chk52 v160), ∀ a x, ((![v160] : Fin 1 → IVec S16 32) a x).toNat < S1000.size a := fun v160 k0_hw52 => k0_hw52

def k0_chk53 (v163 : IVec S16 32) : Prop :=
  (∀ a x, ((![v163] : Fin 1 → IVec S16 32) a x).toNat < S1000.size a)
instance k0_chk53.dec : ∀ (v163 : IVec S16 32), Decidable (k0_chk53 v163) := fun v163 => decidable_of_iff' _ (Iff.of_eq (k0_chk53.eq_1 v163))
theorem k0_idx53_inb : ∀ (v163 : IVec S16 32) (k0_hw53 : k0_chk53 v163), ∀ a x, ((![v163] : Fin 1 → IVec S16 32) a x).toNat < S1000.size a := fun v163 k0_hw53 => k0_hw53

def k0_chk54 (v166 : IVec S16 32) : Prop :=
  (∀ a x, ((![v166] : Fin 1 → IVec S16 32) a x).toNat < S1000.size a)
instance k0_chk54.dec : ∀ (v166 : IVec S16 32), Decidable (k0_chk54 v166) := fun v166 => decidable_of_iff' _ (Iff.of_eq (k0_chk54.eq_1 v166))
theorem k0_idx54_inb : ∀ (v166 : IVec S16 32) (k0_hw54 : k0_chk54 v166), ∀ a x, ((![v166] : Fin 1 → IVec S16 32) a x).toNat < S1000.size a := fun v166 k0_hw54 => k0_hw54

def k0_chk55 (v169 : IVec S16 32) : Prop :=
  (∀ a x, ((![v169] : Fin 1 → IVec S16 32) a x).toNat < S1000.size a)
instance k0_chk55.dec : ∀ (v169 : IVec S16 32), Decidable (k0_chk55 v169) := fun v169 => decidable_of_iff' _ (Iff.of_eq (k0_chk55.eq_1 v169))
theorem k0_idx55_inb : ∀ (v169 : IVec S16 32) (k0_hw55 : k0_chk55 v169), ∀ a x, ((![v169] : Fin 1 → IVec S16 32) a x).toNat < S1000.size a := fun v169 k0_hw55 => k0_hw55

def k0_chk56 (v172 : IVec S16 32) : Prop :=
  (∀ a x, ((![v172] : Fin 1 → IVec S16 32) a x).toNat < S1000.size a)
instance k0_chk56.dec : ∀ (v172 : IVec S16 32), Decidable (k0_chk56 v172) := fun v172 => decidable_of_iff' _ (Iff.of_eq (k0_chk56.eq_1 v172))
theorem k0_idx56_inb : ∀ (v172 : IVec S16 32) (k0_hw56 : k0_chk56 v172), ∀ a x, ((![v172] : Fin 1 → IVec S16 32) a x).toNat < S1000.size a := fun v172 k0_hw56 => k0_hw56

def k0_chk57 (v175 : IVec S16 32) : Prop :=
  (∀ a x, ((![v175] : Fin 1 → IVec S16 32) a x).toNat < S1000.size a)
instance k0_chk57.dec : ∀ (v175 : IVec S16 32), Decidable (k0_chk57 v175) := fun v175 => decidable_of_iff' _ (Iff.of_eq (k0_chk57.eq_1 v175))
theorem k0_idx57_inb : ∀ (v175 : IVec S16 32) (k0_hw57 : k0_chk57 v175), ∀ a x, ((![v175] : Fin 1 → IVec S16 32) a x).toNat < S1000.size a := fun v175 k0_hw57 => k0_hw57

def k0_chk58 (v178 : IVec S16 32) : Prop :=
  (∀ a x, ((![v178] : Fin 1 → IVec S16 32) a x).toNat < S1000.size a)
instance k0_chk58.dec : ∀ (v178 : IVec S16 32), Decidable (k0_chk58 v178) := fun v178 => decidable_of_iff' _ (Iff.of_eq (k0_chk58.eq_1 v178))
theorem k0_idx58_inb : ∀ (v178 : IVec S16 32) (k0_hw58 : k0_chk58 v178), ∀ a x, ((![v178] : Fin 1 → IVec S16 32) a x).toNat < S1000.size a := fun v178 k0_hw58 => k0_hw58

def k0_chk59 (v181 : IVec S16 32) : Prop :=
  (∀ a x, ((![v181] : Fin 1 → IVec S16 32) a x).toNat < S1000.size a)
instance k0_chk59.dec : ∀ (v181 : IVec S16 32), Decidable (k0_chk59 v181) := fun v181 => decidable_of_iff' _ (Iff.of_eq (k0_chk59.eq_1 v181))
theorem k0_idx59_inb : ∀ (v181 : IVec S16 32) (k0_hw59 : k0_chk59 v181), ∀ a x, ((![v181] : Fin 1 → IVec S16 32) a x).toNat < S1000.size a := fun v181 k0_hw59 => k0_hw59

def k0_chk60 (v184 : IVec S16 32) : Prop :=
  (∀ a x, ((![v184] : Fin 1 → IVec S16 32) a x).toNat < S1000.size a)
instance k0_chk60.dec : ∀ (v184 : IVec S16 32), Decidable (k0_chk60 v184) := fun v184 => decidable_of_iff' _ (Iff.of_eq (k0_chk60.eq_1 v184))
theorem k0_idx60_inb : ∀ (v184 : IVec S16 32) (k0_hw60 : k0_chk60 v184), ∀ a x, ((![v184] : Fin 1 → IVec S16 32) a x).toNat < S1000.size a := fun v184 k0_hw60 => k0_hw60

def k0_chk61 (v187 : IVec S16 32) : Prop :=
  (∀ a x, ((![v187] : Fin 1 → IVec S16 32) a x).toNat < S1000.size a)
instance k0_chk61.dec : ∀ (v187 : IVec S16 32), Decidable (k0_chk61 v187) := fun v187 => decidable_of_iff' _ (Iff.of_eq (k0_chk61.eq_1 v187))
theorem k0_idx61_inb : ∀ (v187 : IVec S16 32) (k0_hw61 : k0_chk61 v187), ∀ a x, ((![v187] : Fin 1 → IVec S16 32) a x).toNat < S1000.size a := fun v187 k0_hw61 => k0_hw61

def k0_chk62 (v190 : IVec S16 32) : Prop :=
  (∀ a x, ((![v190] : Fin 1 → IVec S16 32) a x).toNat < S1000.size a)
instance k0_chk62.dec : ∀ (v190 : IVec S16 32), Decidable (k0_chk62 v190) := fun v190 => decidable_of_iff' _ (Iff.of_eq (k0_chk62.eq_1 v190))
theorem k0_idx62_inb : ∀ (v190 : IVec S16 32) (k0_hw62 : k0_chk62 v190), ∀ a x, ((![v190] : Fin 1 → IVec S16 32) a x).toNat < S1000.size a := fun v190 k0_hw62 => k0_hw62

def k0_chk63 (v193 : IVec S16 32) : Prop :=
  (∀ a x, ((![v193] : Fin 1 → IVec S16 32) a x).toNat < S1000.size a)
instance k0_chk63.dec : ∀ (v193 : IVec S16 32), Decidable (k0_chk63 v193) := fun v193 => decidable_of_iff' _ (Iff.of_eq (k0_chk63.eq_1 v193))
theorem k0_idx63_inb : ∀ (v193 : IVec S16 32) (k0_hw63 : k0_chk63 v193), ∀ a x, ((![v193] : Fin 1 → IVec S16 32) a x).toNat < S1000.size a := fun v193 k0_hw63 => k0_hw63

def k0_chk64 (v196 : IVec S16 32) : Prop :=
  (∀ a x, ((![v196] : Fin 1 → IVec S16 32) a x).toNat < S1000.size a)
instance k0_chk64.dec : ∀ (v196 : IVec S16 32), Decidable (k0_chk64 v196) := fun v196 => decidable_of_iff' _ (Iff.of_eq (k0_chk64.eq_1 v196))
theorem k0_idx64_inb : ∀ (v196 : IVec S16 32) (k0_hw64 : k0_chk64 v196), ∀ a x, ((![v196] : Fin 1 → IVec S16 32) a x).toNat < S1000.size a := fun v196 k0_hw64 => k0_hw64
def k0_off2 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000x1_S1000 : S1000x1.ShapeCasts S1000
  inb_S1024_S16_0 : ∀ a, (![0] : Fin 1 → Nat) a + S16.size a ≤ S1024.size a
  h_S16 : 0 < S16.numel
  h_S1000 : 0 < S1000.numel
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_off2_inb : ∀ i : grid0.Coords, ∀ a, (k0_off2 i) a + S1024.size a ≤ S16384.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S16384 : Shape := ⟨1, ![16384]⟩
abbrev S1000x1 : Shape := ⟨2, ![1000, 1]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x1, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x1, .f32⟩
  | .hbm, ⟨21, _⟩ => ⟨S16384x1, .i1⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  shapeCasts_S16384x1_S16384 : S16384x1.ShapeCasts S16384
  gather_S1000x1_S16384x1_S16384x1_1_0_n_n_0_1_11_wf : GatherDims.WF S1000x1 S16384x1 S16384x1 [1] [0] [] [0] [] 1 ![1, 1]

variable [Facts₀]

def gather_S1000x1_S16384x1_S16384x1_1_0_n_n_0_1_11 : GatherDims S1000x1 S16384x1 S16384x1 where
  offsetDims := [1]
  collapsedSliceDims := [0]
  operandBatchingDims := []
  startIndicesBatchingDims := []
  startIndexMap := [0]
  indexVectorDim := 1
  sliceSizes := ![1, 1]
  wf := gather_S1000x1_S16384x1_S16384x1_1_0_n_n_0_1_11_wf

class Facts : Prop extends Facts₀ where

variable [Facts]
-- ==== Proof.LookupSpec.lean ====
/-
  An embedding lookup out of a one-column table, as one function of the argument arrays.

  The table has 1000 rows and one column; the index array has 16384 entries, each a 32-bit word.
  Entry `j` of the result is the table's row named by word `j` of the index array. A word is read
  as a natural number and reduced modulo the table's height, so that the function is total; on the
  words this certificate's precondition admits (every word below 1000) the reduction changes nothing.
-/
import Idealize.ShloMosaic.Lib.ValueIdx

namespace Cert.Proof.Lookup

open Idealize.ShloMosaic

/-- The index array's shape, the table's, and the flattened table's. -/
abbrev SIdx : Shape := ⟨1, ![16384]⟩
abbrev STab : Shape := ⟨2, ![1000, 1]⟩
abbrev SFlat : Shape := ⟨1, ![1000]⟩

/-- The row of the table a word names (modulo the table's height), in its one column. -/
def rowOf (w : BitVec 32) : STab.Idx :=
  ValueIdx.ix2 (⟨w.toNat % 1000, Nat.mod_lt _ (by decide)⟩ : Fin 1000) (⟨0, by decide⟩ : Fin 1)

/-- The lookup: entry `j` of the result is the table at the row word `j` names. -/
def G {α : Type} (idx : SIdx.Idx → BitVec 32) (W : STab.Idx → α) : SIdx.Idx → α :=
  fun j => W (rowOf (idx j))

/-- Every word of the index array names a row of the table. -/
def InRange (idx : SIdx.Idx → BitVec 32) : Prop := ∀ j, (idx j).toNat < 1000

theorem rowOf_of_lt {w : BitVec 32} (h : w.toNat < 1000) :
    rowOf w = ValueIdx.ix2 (⟨w.toNat, h⟩ : Fin 1000) (⟨0, by decide⟩ : Fin 1) := by
  unfold rowOf
  congr 1
  exact Fin.ext (Nat.mod_eq_of_lt h)

end Cert.Proof.Lookup
-- ==== Proof.PreRange.lean ====
/-
  The precondition decoded: when the printed predicate — every table entry finite, and every word of the
  index array between 0 and 999 as a signed number — evaluates to all ones, every word of the index array,
  read as a natural number, is below 1000 (a signed word that is at least 0 is its own unsigned value).
-/
import proofs.«200106_g78254304133134_cont_9to1_m_1336_10_alg».proof.Pre_input_domain
import Idealize.ShloMosaic.Lib.ReduceAll
import Idealize.ShloMosaic.Lib.ValueIdx

namespace Cert.Proof.PreRange

open Idealize.ShloMosaic Cert.Pre_input_domain

instance : Subsingleton S_.Idx := ⟨fun a b => funext fun d => d.elim0⟩

theorem ofBool_eq_one (b : Bool) : BitVec.ofBool b = 1#1 ↔ b = true := by cases b <;> decide
theorem and1 : ∀ (a b : BitVec 1), IntOp.andi a b = 1#1 ↔ a = 1#1 ∧ b = 1#1 := by decide

/-- A word in [0, 999] signed is below 1000 unsigned. -/
theorem toNat_lt (w : BitVec 32) (h0 : IntOp.cmpi .sge w (0#32) = 1#1) (h1 : IntOp.cmpi .sle w (999#32) = 1#1) : w.toNat < 1000 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

variable [Facts]

/-- The predicate all ones: every word of the index array names a row of the 1000-row table. -/
theorem lt_of_pre {F : FTy → Type} [FloatOps F] (idx : IVec S16384 32) (W : FVec F S1000x1 .f32)
    (h : fn (F := F) idx W = fun _ => 1#1) : ∀ j : S16384.Idx, (idx j).toNat < 1000 := by
  intro j
  have e := congrFun h ValueIdx.ix0
  unfold fn at e
  simp only [andi] at e
  rw [and1] at e
  obtain ⟨-, e9⟩ := e
  have e8 := Host.reduce_andi_all _ _ _ _ _ e9 j
  simp only [andi, cmpi, broadcastInDim, constantI] at e8
  rw [and1] at e8
  exact toNat_lt _ e8.1 e8.2

end Cert.Proof.PreRange
-- ==== Proof.RefRun.lean ====
/-
  The reference's run, and what it computes on indices inside the table.

  The reference is a straight line of twenty-four array operations: it moves a negative index up by the
  table's height (1000), gathers the table's rows at the resulting start indices — the gather clamps a
  start index into `[0, 999]` —, tests each start index against `[0, 999]`, reduces that test along the
  one column, selects the gathered row where the test held and a filler value where it did not, and
  reshapes the `[16384, 1]` result to a vector of 16384 entries.

  First the run: from any memory every execution ends with the result buffer at the operations'
  composed term `out` of the two arguments' contents, and with the arguments unchanged. Then the value:
  when every index word is below 1000 — read signed, between 0 and 999 — the wrap changes nothing, every
  test holds, the clamp changes nothing, so entry `j` is the table's row `idx j`: the lookup `G`.
-/
import proofs.«200106_g78254304133134_cont_9to1_m_1336_10_alg».proof.ReferenceIdeal
import proofs.«200106_g78254304133134_cont_9to1_m_1336_10_alg».proof.Proof.Gen.ReferenceIdeal
import proofs.«200106_g78254304133134_cont_9to1_m_1336_10_alg».proof.Proof.LookupSpec
import Idealize.ShloMosaic.Lib.StableHlo.Run
import Idealize.ShloMosaic.Lib.ValueIdx
import Idealize.ShloMosaic.Lib.Pipeline.Value
import Idealize.ShloMosaic.PureOps.Reduce

noncomputable section

namespace Cert.Proof.RefRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The program as a list of operations, and its run -/

/-- The reference's twenty-four operations in order: the twenty-three of the row lookup (the select of the
    wrapped index among them), then the reshape to a vector. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000x1_S16384x1_S16384x1_1_0_n_n_0_1_11 x i),
    TRef.unary main_call0.v12 main_call0.v14 (broadcastInDim S16384x1 ![0] bcast_S16384_S16384x1_0),
    TRef.nullary main_call0.cst (constant S_ .f32 0x7FC00000#32),
    TRef.unary main_call0.cst main_call0.v15 (broadcastInDim S16384x1 ![] bcast_S_S16384x1),
    TRef.ternary main_call0.v14 main_call0.v13 main_call0.v15 main_call0.v16 select,
    reshape main_v0 main_v1 rfl shapeCasts_S16384x1_S16384 ]

set_option maxRecDepth 1024 in
/-- The program is that straight line: the two functions' bodies written out where they are called. -/
theorem main_eq (c : Dev nD) : main (F := F) c = seq ops := by
  simp only [main, fn_take.body, fn_where.body, seq, bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-- Every execution ends, each buffer holding the operations' fold over the initial contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The index array with a negative word moved up by the table's height (the reference's wrap of negative indices). -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 1000#32))) idx

/-- The wrapped indices as a one-column array: the start indices of the gather. -/
def col (idx : IVec S16384 32) : IVec S16384x1 32 :=
  broadcastInDim S16384x1 ![0] bcast_S16384_S16384x1_0 (wrapped idx)

/-- Per start index, whether it lies in `[0, 999]`. -/
def inside (idx : IVec S16384 32) : IVec S16384x1 1 :=
  andi (cmpi .sge (col idx) (broadcastInDim S16384x1 ![] bcast_S_S16384x1 (constantI S_ 32 0#32)))
    (cmpi .sle (col idx) (broadcastInDim S16384x1 ![0, 1] bcast_S1x1_S16384x1_0_1
      (broadcastInDim S1x1 ![1] bcast_S1_S1x1_1 (constantI S1 32 999#32))))

/-- The same reduced along the one column and broadcast back: the select's condition. -/
def mask (idx : IVec S16384 32) : IVec S16384x1 1 :=
  broadcastInDim S16384x1 ![0] bcast_S16384_S16384x1_0
    (Host.reduce IntOp.andi (inside idx) (constantI S_ 1 1#1) reducesTo_S16384x1_S16384_d1 h_S_)

/-- The gathered rows where the index was inside the table, the filler elsewhere. -/
def taken (idx : IVec S16384 32) (W : FVec F S1000x1 .f32) : FVec F S16384x1 .f32 :=
  select (mask idx) (Host.gather gather_S1000x1_S16384x1_S16384x1_1_0_n_n_0_1_11 W (col idx))
    (broadcastInDim S16384x1 ![] bcast_S_S16384x1 (constant S_ .f32 0x7FC00000#32))

/-- What the reference computes from its two arguments' contents. -/
def out (idx : IVec S16384 32) (W : FVec F S1000x1 .f32) : FVec F S16384 .f32 :=
  shapeCast S16384 (taken idx W) shapeCasts_S16384x1_S16384

-- the fold is unrolled once per (operation, buffer) pair, and the buffers told apart by computation
set_option maxRecDepth 65536 in
/-- The fold at the result buffer is the composed term of the two arguments' contents. -/
theorem out_eq (V : Valuation τ sig (Elt F)) :
    after ops V (main_v1 : DevRef τ sig) = out (V (main_arg0 : DevRef τ sig)) (V (main_arg1 : DevRef τ sig)) := by
  after_results
  rfl

/-- No operation writes the index array. -/
theorem arg0_eq (V : Valuation τ sig (Elt F)) :
    after ops V (main_arg0 : DevRef τ sig) = V (main_arg0 : DevRef τ sig) := by
  after_results

/-- No operation writes the table. -/
theorem arg1_eq (V : Valuation τ sig (Elt F)) :
    after ops V (main_arg1 : DevRef τ sig) = V (main_arg1 : DevRef τ sig) := by
  after_results

/-- The run, for any float values: the result buffer ends at the composed term, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_ops m ρ)

/-! ## Words below the table's height -/

/-- A word below 1000 is, read signed, the same number: not negative, at most 999, and its own clamp into `[0, 999]`. -/
theorem word_facts (w : BitVec 32) (h : w.toNat < 1000) :
    IntOp.cmpi .slt w 0#32 = 0#1 ∧ IntOp.cmpi .sge w 0#32 = 1#1 ∧ IntOp.cmpi .sle w 999#32 = 1#1
      ∧ min w.toInt.toNat 999 = w.toNat := by
  have hw : w.toInt = (w.toNat : Int) := BitVec.toInt_eq_toNat_of_lt (by omega)
  have h9 : (999#32 : BitVec 32).toInt = 999 := by decide
  have h0 : (0#32 : BitVec 32).toInt = 0 := by decide
  refine ⟨?_, ?_, ?_, ?_⟩
  · have : w.slt 0#32 = false := by
      rw [BitVec.slt, hw, h0]; exact decide_eq_false (by omega)
    show BitVec.ofBool (w.slt 0#32) = 0#1
    rw [this]; rfl
  · have : (0#32 : BitVec 32).sle w = true := by
      rw [BitVec.sle, hw, h0]; exact decide_eq_true (by omega)
    show BitVec.ofBool ((0#32 : BitVec 32).sle w) = 1#1
    rw [this]; rfl
  · have : w.sle 999#32 = true := by
      rw [BitVec.sle, hw, h9]; exact decide_eq_true (by omega)
    show BitVec.ofBool (w.sle 999#32) = 1#1
    rw [this]; rfl
  · rw [hw]; omega

/-! ## The gather at an index -/

/-- A one-column index is its row coordinate. -/
theorem idx_col_ext {n : Nat} {k k' : (⟨2, ![n, 1]⟩ : Shape).Idx} (h : (k 0).val = (k' 0).val) : k = k' := by
  funext a
  refine Fin.ext ?_
  match a with
  | ⟨0, _⟩ => exact h
  | ⟨1, _⟩ =>
    have h1 := idx2_lt1 k
    have h2 := idx2_lt1 k'
    show (k 1).val = (k' 1).val
    omega

/-- The gather of rows of a one-column table read at `(t, 0)`: the table's row at the start index `ix (t, 0)`, read
    signed and clamped into `[0, 999]`. -/
theorem gather_apply {α : Type} (W : S1000x1.Idx → α) (ix : IVec S16384x1 32) (k : S16384x1.Idx) :
    Host.gather gather_S1000x1_S16384x1_S16384x1_1_0_n_n_0_1_11 W ix k
      = W (ix2 (⟨min (ix k).toInt.toNat 999, by omega⟩ : Fin 1000) (⟨0, by omega⟩ : Fin 1)) := by
  unfold Host.gather
  refine congrArg W (idx_col_ext ?_)
  show gather_S1000x1_S16384x1_S16384x1_1_0_n_n_0_1_11.start k ix 0
      + gather_S1000x1_S16384x1_S16384x1_1_0_n_n_0_1_11.batchCoord k 0
      + gather_S1000x1_S16384x1_S16384x1_1_0_n_n_0_1_11.offCoord k 0 = min (ix k).toInt.toNat 999
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S1000x1.rank) ∈ gather_S1000x1_S16384x1_S16384x1_1_0_n_n_0_1_11.startIndexMap from List.mem_singleton.mpr rfl)]
  have hsi : gather_S1000x1_S16384x1_S16384x1_1_0_n_n_0_1_11.siIdx k
      ⟨List.idxOf (0 : Fin S1000x1.rank) gather_S1000x1_S16384x1_S16384x1_1_0_n_n_0_1_11.startIndexMap,
        List.idxOf_lt_length_iff.2 (List.mem_singleton.mpr rfl)⟩ = k :=
    idx_col_ext rfl
  rw [hsi]
  rfl

/-! ## The composed term at an index, for indices inside the table -/

open Cert.Proof.Lookup in
theorem wrapped_apply (idx : IVec S16384 32) (hin : InRange idx) (j : S16384.Idx) : wrapped idx j = idx j := by
  show Scalar.select (IntOp.cmpi .slt (idx j) 0#32) (IntOp.addi (idx j) 1000#32) (idx j) = idx j
  rw [(word_facts (idx j) (hin j)).1, select_zero]

theorem col_apply (idx : IVec S16384 32) (k : S16384x1.Idx) : col idx k = wrapped idx (ix1 (k 0)) := by
  unfold col
  exact broadcastInDim_apply _ _ _ k (ix1 (k 0)) (fun a => match a with | ⟨0, _⟩ => rfl)

open Cert.Proof.Lookup in
theorem inside_apply (idx : IVec S16384 32) (hin : InRange idx) (k : S16384x1.Idx) : inside idx k = 1#1 := by
  show IntOp.andi (IntOp.cmpi .sge (col idx k) 0#32) (IntOp.cmpi .sle (col idx k) 999#32) = 1#1
  rw [col_apply, wrapped_apply idx hin, (word_facts _ (hin _)).2.1, (word_facts _ (hin _)).2.2.1]
  rfl

/-- A left fold by `and` from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_one f hf l

open Cert.Proof.Lookup in
theorem mask_apply (idx : IVec S16384 32) (hin : InRange idx) (k : S16384x1.Idx) : mask idx k = 1#1 := by
  unfold mask
  refine (broadcastInDim_apply _ _ _ k (ix1 (k 0)) (fun a => match a with | ⟨0, _⟩ => rfl)).trans ?_
  exact (Host.reduce_eq_foldl _ _ _ _ _ _).trans (foldl_andi_one _ (inside_apply idx hin) _)

open Cert.Proof.Lookup in
theorem taken_apply (idx : IVec S16384 32) (hin : InRange idx) (W : FVec F S1000x1 .f32) (k : S16384x1.Idx) :
    taken idx W k = W (rowOf (idx (ix1 (k 0)))) := by
  unfold taken
  rw [select_apply, mask_apply idx hin, select_one, gather_apply, rowOf_of_lt (hin _)]
  refine congrArg W (idx_col_ext ?_)
  show min (col idx k).toInt.toNat 999 = (idx (ix1 (k 0))).toNat
  rw [col_apply, wrapped_apply idx hin]
  exact (word_facts _ (hin _)).2.2.2

open Cert.Proof.Lookup in
/-- For indices inside the table the reference's result is the lookup. -/
theorem out_eq_G (idx : IVec S16384 32) (hin : InRange idx) (W : FVec F S1000x1 .f32) : out idx W = G idx W := by
  funext j
  unfold out
  refine (shapeCast_apply _ _ j (ix2 (j 0) (⟨0, by omega⟩ : Fin 1)) (by
      rw [Shape.rowMajor_val_two, Shape.rowMajor_val_one]
      show (j 0).val * 1 + 0 = (j 0).val
      omega)).trans ?_
  refine (taken_apply idx hin W _).trans ?_
  show W (rowOf (idx (ix1 (j 0)))) = W (rowOf (idx j))
  exact congrArg (fun i => W (rowOf (idx i))) (eq_ix1 j).symm

/-! ## The two statements -/

/-- The reference's @main runs to the end from any memory; its result is its operations' composed term and its arguments are unchanged. -/
theorem run (m : (ℓ : Loc nD τ sig) → Buf (Elt Ideal) ℓ) (ρ : Dev nD → PrngReg)
    (hin : ∀ c : Dev nD, Cert.Proof.Lookup.InRange (m ((c.tc : Thread nD τ).loc main_arg0))) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v1) = Cert.Proof.Lookup.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c => ⟨(h c).1.trans (out_eq_G _ (hin c) _), (h c).2.1, (h c).2.2⟩) (run_out m ρ)

/-- The same run with no hypothesis on the indices and the result dropped: the reference's frame. -/
theorem run_frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c => ⟨(h c).2.1, (h c).2.2⟩) (run_out m ρ)

end Cert.Proof.RefRun

end
-- ==== Proof.KbSetup.lean ====
/-
  The lookup kernel as the SparseCore launch theorem sees it: one call, run by one SparseCore's sixteen
  vector subcores at once. Subcore `i` copies the whole flattened table and words [1024 i, 1024 i + 1024) of
  the index array into its own memory, reads the table at those words sixteen lanes at a time into a third
  buffer, and copies that buffer onto entries [1024 i, 1024 i + 1024) of the result.

  What the call's handshakes carry: the TensorCore hands the call the index array, the flattened table and the
  result array whole; subcore `i` is handed its 1024 entries of the index array and of the result, and one of
  sixteen read shares of the table (every subcore reads all of it, none writes it); it hands back the same, its
  entries of the result now holding the table at its words. The sixteen ranges tile the arrays.
-/
import proofs.«200106_g78254304133134_cont_9to1_m_1336_10_alg».proof.Defs
import proofs.«200106_g78254304133134_cont_9to1_m_1336_10_alg».proof.Proof.LookupSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«200106_g78254304133134_cont_9to1_m_1336_10_alg».proof.Proof.Gen.Kernel
import proofs.«200106_g78254304133134_cont_9to1_m_1336_10_alg».proof.Proof.Gen.Kernel.Skeleton

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array and the table (the arguments), the flattened table and the result, as locations of device `d`. -/
abbrev iLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

-- What the flattened table holds when the call is made, per device: a parameter here, fixed where @main is run.
variable (tb : (d : Dev nD) → Buf (Elt F) (tLoc d))

/-- Entry `j` of the result: the flattened table at the row word `j` of the index array names (modulo its height). -/
def outOf (d : Dev nD) : Buf (Elt F) (oLoc d) :=
  fun j => tb d (ValueIdx.ix1 (⟨(m (iLoc d) j).toNat % 1000, Nat.mod_lt _ (by decide)⟩ : Fin 1000))

theorem hdiv : 16 ∣ S16384.size 0 := ⟨1024, rfl⟩
/-- Entries [1024 i, 1024 i + 1024) of a 16384-entry array. -/
abbrev row (i : Fin 16) : Rect S16384 := Rect.part (s := S16384) (a₀ := 0) hdiv i
abbrev rowSet (i : Fin 16) : Finset S16384.Idx := (row i).set

variable [FloatOps F]

abbrev iPts (d : Dev nD) : sProp 𝕄 := iLoc d ↦{fullShare} m (iLoc d)
abbrev tPts (d : Dev nD) : sProp 𝕄 := tLoc d ↦{fullShare} tb d
abbrev oPts (d : Dev nD) (f : Buf (Elt F) (oLoc d)) : sProp 𝕄 := oLoc d ↦{fullShare} f
abbrev iRowPts (d : Dev nD) (i : Fin 16) : sProp 𝕄 := iLoc d ↦[rowSet i]{fullShare} m (iLoc d)
abbrev tTok (d : Dev nD) (i : Fin 16) : sProp 𝕄 := tLoc d ↦{Transfers.shareTok fullShare 16 i} tb d
abbrev oRowPts (d : Dev nD) (i : Fin 16) (f : Buf (Elt F) (oLoc d)) : sProp 𝕄 := oLoc d ↦[rowSet i]{fullShare} f

/-- The one call takes the index array, the flattened table and the result whole, each subcore its range of the
    index array and of the result and a read share of the table, and brings them back, the result at the lookup. -/
def P : (K (F := F)).Pay (nD := nD) (Val := Elt F) (Name := ℕ) (U := UU) where
  st := fun q d _ => match q with | 0 => iprop(iPts m d ∗ tPts tb d ∗ oPts d (m (oLoc d)))
  dn := fun q d _ => match q with | 0 => iprop(iPts m d ∗ tPts tb d ∗ oPts d (outOf m tb d))
  go := fun q d _ i => match q with
    | 0 => iprop(iRowPts m d (Fin.cast nSub_zero i) ∗ tTok tb d (Fin.cast nSub_zero i) ∗ oRowPts d (Fin.cast nSub_zero i) (m (oLoc d)))
  td := fun q d _ i => match q with
    | 0 => iprop(iRowPts m d (Fin.cast nSub_zero i) ∗ tTok tb d (Fin.cast nSub_zero i) ∗ oRowPts d (Fin.cast nSub_zero i) (outOf m tb d))
  x := fun _ _ => iprop(emp)

instance P_storable : (P (F := F) m tb).IsStorable where
  st q d _ := match q with
    | 0 => (inferInstance : BI.Storable (upEmb : UEmb _ 𝕄) iprop(iPts m d ∗ tPts tb d ∗ oPts d (m (oLoc d))))
  dn q d _ := match q with
    | 0 => (inferInstance : BI.Storable (upEmb : UEmb _ 𝕄) iprop(iPts m d ∗ tPts tb d ∗ oPts d (outOf m tb d)))
  go q d _ i := match q with
    | 0 => (inferInstance : BI.Storable (upEmb : UEmb _ 𝕄)
        iprop(iRowPts m d (Fin.cast nSub_zero i) ∗ tTok tb d (Fin.cast nSub_zero i) ∗ oRowPts d (Fin.cast nSub_zero i) (m (oLoc d))))
  td q d _ i := match q with
    | 0 => (inferInstance : BI.Storable (upEmb : UEmb _ 𝕄)
        iprop(iRowPts m d (Fin.cast nSub_zero i) ∗ tTok tb d (Fin.cast nSub_zero i) ∗ oRowPts d (Fin.cast nSub_zero i) (outOf m tb d)))

end Cert.Proof.Kb

end
-- ==== Proof.KbTileBase.lean ====
/-
  The pieces of one vector subcore's task of the lookup, at a symbolic subcore: its ranges of the index array and of the
  result as the body slices them, its own buffers and semaphores taken out of what the launch hands it, and the
  facts about what its loads read and what its stores leave.
-/
import proofs.«200106_g78254304133134_cont_9to1_m_1336_10_alg».proof.Proof.KbSetup

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (tb : (d : Dev nD) → Buf (Elt F) (tLoc d))

-- the kernel's memrefs, spelt as the body table passes them
local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000 EltTy.f32)
local notation "oV" => (Memref.whole Cert.Kernel.main_v1_scv : Memref Cert.Kernel.sig Kind.scVector Space.hbm Cert.Kernel.S16384 EltTy.f32)
local notation "sI" => (Memref.whole Cert.Kernel.cc0_scratch0 : Memref Cert.Kernel.sig Kind.scVector Space.vmem Cert.Kernel.S1024 EltTy.i32)
local notation "sT" => (Memref.whole Cert.Kernel.cc0_scratch1 : Memref Cert.Kernel.sig Kind.scVector Space.vmem Cert.Kernel.S1000 EltTy.f32)
local notation "sO" => (Memref.whole Cert.Kernel.cc0_scratch2 : Memref Cert.Kernel.sig Kind.scVector Space.vmem Cert.Kernel.S1024 EltTy.f32)

variable [FloatOps F]

/-- What the proof asks of the launch memory: every word of the index array names a row of the table. -/
def PreOK : Prop := ∀ (d : Dev nD) (j : S16384.Idx), (m (iLoc d) j).toNat < 1000

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev rowK1 (L : grid0.Coords) : Rect S16384 := Rect.unit (s := S16384) (k0_off1 L) S1024.size (k0_off1_inb L)
abbrev rowK2 (L : grid0.Coords) : Rect S16384 := Rect.unit (s := S16384) (k0_off2 L) S1024.size (k0_off2_inb L)
/-- The subcore's words of the index array and its entries of the result, as the body slices them. -/
abbrev iRowK (L : grid0.Coords) : Memref sig .scVector .hbm S1024 .i32 := (iV).slice (rowK1 L) (fun _ => rfl)
abbrev oRowK (L : grid0.Coords) : Memref sig .scVector .hbm S1024 .f32 := (oV).slice (rowK2 L) (fun _ => rfl)

omit [FloatOps F] in
theorem L0_zero : (L 0).val = 0 := by
  have h : (L 0).val < 1 := (L 0).isLt
  omega

omit [FloatOps F] in
theorem rowK1_eq : rowK1 L = row (jL L) := by
  unfold rowK1 row Rect.part Rect.block
  congr 1 <;> funext a
  · rw [k0_off1_eq]
    match a with
    | 0 => simp [Shape.partIx, Shape.partSize, L0_zero L, Nat.mul_comm]
  · match a with
    | 0 => simp [Shape.partSize]
omit [FloatOps F] in
theorem rowK2_eq : rowK2 L = row (jL L) := by
  unfold rowK2 row Rect.part Rect.block
  congr 1 <;> funext a
  · rw [k0_off2_eq]
    match a with
    | 0 => simp [Shape.partIx, Shape.partSize, L0_zero L, Nat.mul_comm]
  · match a with
    | 0 => simp [Shape.partSize]

omit [FloatOps F] in
theorem set_iRowK : (iRowK L).view.set = rowSet (jL L) := by
  show ((iV).view.slice (rowK1 L)).set = (row (jL L)).set
  rw [View.set_slice, rowK1_eq]; exact Finset.map_refl
omit [FloatOps F] in
theorem set_oRowK : (oRowK L).view.set = rowSet (jL L) := by
  show ((oV).view.slice (rowK2 L)).set = (row (jL L)).set
  rw [View.set_slice, rowK2_eq]; exact Finset.map_refl

omit [FloatOps F] in
theorem pts_iRowK (f : Buf (Elt F) (iLoc d)) :
    ((iRowK L).view.loc (V d (cV L) (jV L)) ↦[(iRowK L).view.set]{fullShare} f : sProp 𝕄) = iLoc d ↦[rowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[rowSet (jL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sT (f : Buf (Elt F) ((V d (cV L) (jV L)).loc cc0_scratch1)) :
    ((sT).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- What the index copy lands in the subcore's index buffer are words of the index array, each naming a row. -/
theorem landed_lt (hpre : PreOK m) : ∀ j, ((iRowK L).view.read (Elt F) (m (iLoc d)) j).toNat < 1000 := fun j => by
  have e : (iRowK L).view.read (Elt F) (m (iLoc d)) j = m (iLoc d) ((iRowK L).view.emb j) := (View.read_apply _ _).trans (cast_eq _ _)
  rw [e]; exact hpre d _

omit [FloatOps F] in
/-- Sixteen words loaded from the index buffer, once it holds words that each name a row, name rows. -/
theorem chk_of_lt (fs X : Buf (Elt F) ((V d (cV L) (jV L)).loc cc0_scratch0)) (hX : ∀ j, (X j).toNat < 1000)
    (off : Fin 1 → Nat) (inb : ∀ a, off a + S16.size a ≤ S1024.size a) :
    ∀ (a : Fin 1) (x : S16.Idx), ((![(sI).view.readAt (Elt F) (Rect.unit (s := S1024) off S16.size inb).toLoadRect
      ((sI).view.write (Elt F) fs X Finset.univ)] : Fin 1 → IVec S16 32) a x).toNat < S1000.size a := by
  intro a x
  obtain rfl : a = 0 := Subsingleton.elim _ _
  show ((sI).view.readAt (Elt F) (Rect.unit (s := S1024) off S16.size inb).toLoadRect ((sI).view.write (Elt F) fs X Finset.univ) x).toNat < 1000
  rw [View.readAt_apply]; simp only [Memref.view_whole, View.write_whole_univ, View.read_whole]
  exact hX _

/-- The indexed load as a block's last operation: the library's rule at the trivial continuation. -/
theorem vload_tail {t : Shape} {idxs : Fin S1000.rank → IVec t 32} {h : ∀ a x, (idxs a x).toNat < S1000.size a} {hl : (sT).view.Loads}
    {f : Buf (Elt F) (((sT).access (.whole S1000)).loc (V d (cV L) (jV L)))} {Q : Vec F t .f32 → sProp 𝕄} :
    ((((sT).access (.whole S1000)).loc (V d (cV L) (jV L)) ↦{fullShare} f) : sProp 𝕄)
      ⊢ iprop(((((sT).access (.whole S1000)).loc (V d (cV L) (jV L)) ↦{fullShare} f)
          -∗ wp frame (wpE (defs₀ (F := F)) 𝒱₀ (V d (cV L) (jV L)) none) Set.univ (pure (loadIdx (((sT).access (.whole S1000)).read (Elt F) f) idxs h)) Q)
        -∗ wp frame (wpE (defs₀ (F := F)) 𝒱₀ (V d (cV L) (jV L)) none) Set.univ (SparseCore.vectorLoadIdx sT idxs h hl) Q) := by
  have key := SparseCore.wp_vectorLoadIdx (defs := defs₀ (F := F)) 𝒱₀ (V d (cV L) (jV L)) none Set.univ (base := sT) (idxs := idxs) (h := h) (hl := hl)
    (k := pure) (S := Finset.univ) (q := fullShare) (f := f) (Q := Q) (Finset.subset_univ _)
  rwa [Prog.bind_pure] at key

/-- The value the task computes at position `y` of its value buffer: the table at the row word `y` names. -/
def Gp (T0 : Buf (Elt F) ((V d (cV L) (jV L)).loc cc0_scratch1)) (X : Buf (Elt F) ((V d (cV L) (jV L)).loc cc0_scratch0)) :
    S1024.Idx → Elt F .f32 :=
  fun y => T0 (ValueIdx.ix1 (⟨(X y).toNat % 1000, Nat.mod_lt _ (by decide)⟩ : Fin 1000))

omit [FloatOps F] in
/-- Sixteen table entries read at sixteen words loaded from position `off` of the index buffer are, lane by lane,
    the values `Gp` names at positions `off`, …, `off + 15`. -/
theorem piece_ok (ft T0 : Buf (Elt F) ((V d (cV L) (jV L)).loc cc0_scratch1)) (fs X : Buf (Elt F) ((V d (cV L) (jV L)).loc cc0_scratch0))
    (hX : ∀ j, (X j).toNat < 1000) (off : Fin 1 → Nat) (inb : ∀ a, off a + S16.size a ≤ S1024.size a)
    (h : ∀ a x, ((![(sI).view.readAt (Elt F) (Rect.unit (s := S1024) off S16.size inb).toLoadRect ((sI).view.write (Elt F) fs X Finset.univ)] : Fin 1 → IVec S16 32) a x).toNat < S1000.size a)
    (x : (Rect.unit (s := S1024) off S16.size inb).shape.Idx) :
    loadIdx (View.read (Elt F) ((sT).access (Rect.whole cc0_scratch1.ty.shape)) (View.write (Elt F) (sT).view ft T0 Finset.univ))
      (![(sI).view.readAt (Elt F) (Rect.unit (s := S1024) off S16.size inb).toLoadRect ((sI).view.write (Elt F) fs X Finset.univ)] : Fin 1 → IVec S16 32) h x
    = Gp (F := F) d L T0 X ((Rect.unit (s := S1024) off S16.size inb).emb x) := by
  have hT : View.read (Elt F) ((sT).access (Rect.whole cc0_scratch1.ty.shape)) (View.write (Elt F) (sT).view ft T0 Finset.univ) = T0 := by
    rw [show View.write (Elt F) (sT).view ft T0 Finset.univ = T0 from View.write_whole_univ _ _ _]
    exact Memref.read_access_whole _ _ _
  unfold loadIdx Gp
  rw [hT]
  congr 1
  refine funext fun (a : Fin 1) => ?_
  obtain rfl : a = 0 := Subsingleton.elim _ _
  apply Fin.ext
  show ((sI).view.readAt (Elt F) (Rect.unit (s := S1024) off S16.size inb).toLoadRect ((sI).view.write (Elt F) fs X Finset.univ) x).toNat = (X _).toNat % 1000
  rw [View.readAt_apply]; simp only [Memref.view_whole, View.write_whole_univ, View.read_whole]
  exact (Nat.mod_eq_of_lt (hX _)).symm

omit [FloatOps F] in
/-- The subcore's ranges of the index array and of the result sit at the same entries. -/
theorem emb_rows (y : S1024.Idx) : (rowK1 L).emb y = (rowK2 L).emb y := by
  funext a; apply Fin.ext
  rw [Rect.emb_apply, Rect.emb_apply]
  show (k0_off1 L) a + 1 * (y a).val = (k0_off2 L) a + 1 * (y a).val
  rw [k0_off1_eq, k0_off2_eq]

omit [FloatOps F] in
/-- What the task leaves on its range of the result. The value buffer was written through pieces that cover it, piece
    by piece the values `Gp` names; it was then copied whole onto the range. So entry `i` of the range holds the
    table at the row word `i` of the index array names. -/
theorem out_value (fo : Buf (Elt F) ((V d (cV L) (jV L)).loc cc0_scratch2))
    (T0 : Buf (Elt F) ((V d (cV L) (jV L)).loc cc0_scratch1)) (X : Buf (Elt F) ((V d (cV L) (jV L)).loc cc0_scratch0))
    (hT : ∀ r, T0 r = tb d r) (hXm : ∀ y, X y = m (iLoc d) ((rowK1 L).emb y))
    (Lp : List (View.Piece (Elt F) cc0_scratch2.ty.shape cc0_scratch2.ty.elt))
    (hG : ∀ p ∈ Lp, ∀ x : p.1.shape.Idx, p.2 x = Gp (F := F) d L T0 X (p.1.emb x)) (hcov : ∀ y, ∃ p ∈ Lp, y ∈ p.1.set)
    (Wv : S1024.Idx → Elt F .f32) (hW : Wv = (sO).view.read (Elt F) ((sO).view.writes (Elt F) fo Lp)) :
    ∀ i ∈ rowSet (jL L), (oRowK L).view.writes (Elt F) (m (oLoc d)) [⟨Rect.whole S1024, Wv⟩] i = outOf m tb d i := by
  intro i hi
  have hi' : i ∈ (rowK2 L).set := by rw [rowK2_eq]; exact hi
  obtain ⟨y, rfl⟩ := (rowK2 L).exists_idx_of_mem hi'
  have hval : ∀ x, Wv x = Gp (F := F) d L T0 X x := fun x => by
    rw [hW]; exact View.read_writes_apply_of_pieces (v := (sO).view) (f := fo) _ Lp hG x (hcov x)
  have h1 : (oRowK L).view.read (Elt F) ((oRowK L).view.writes (Elt F) (m (oLoc d)) [⟨Rect.whole S1024, Wv⟩]) y = Gp (F := F) d L T0 X y :=
    View.read_writes_apply_of_pieces (v := (oRowK L).view) (f := m (oLoc d)) _ [⟨Rect.whole S1024, Wv⟩]
      (fun p hp x => by
        obtain rfl := List.mem_singleton.mp hp
        show Wv x = Gp (F := F) d L T0 X ((Rect.whole S1024).emb x)
        rw [Rect.emb_whole_apply]; exact hval x)
      y ⟨_, List.mem_singleton_self _, by rw [Rect.set_whole]; exact Finset.mem_univ _⟩
  have h2 : (oRowK L).view.read (Elt F) ((oRowK L).view.writes (Elt F) (m (oLoc d)) [⟨Rect.whole S1024, Wv⟩]) y
      = (oRowK L).view.writes (Elt F) (m (oLoc d)) [⟨Rect.whole S1024, Wv⟩] ((rowK2 L).idx y) := (View.read_apply _ _).trans (cast_eq _ _)
  rw [← h2, h1]
  unfold Gp outOf
  rw [hT]
  have e : X y = m (iLoc d) ((rowK2 L).idx y) := (hXm y).trans (congrArg (m (iLoc d)) (emb_rows L y))
  exact congrArg (tb d) (congrArg ValueIdx.ix1 (Fin.ext (by show (X y).toNat % 1000 = _; rw [e])))

end Tile

end Cert.Proof.Kb

end
-- ==== Proof.KbTile.lean ====
/-
  One vector subcore's task of the lookup, at a symbolic subcore: from its 1024 words of the index array (each
  naming a row of the table), a read share of the flattened table and its 1024 entries of the result, the task
  ends with those entries holding the table at its words, everything else handed back as it was.

  The body copies the table and the words into the subcore's own buffers and waits for both copies; then, sixty-four
  times, loads sixteen words, reads the table at them and stores the sixteen values; then copies the 1024 values
  onto its entries of the result and waits. The sixty-four stores tile the value buffer, and the value stored at
  position `y` is the table at the row word `y` names: so the buffer, and after the last copy the subcore's
  entries of the result, hold the lookup.
-/
import proofs.«200106_g78254304133134_cont_9to1_m_1336_10_alg».proof.Proof.KbTileBase

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (tb : (d : Dev nD) → Buf (Elt F) (tLoc d))

-- the kernel's memrefs, spelt as the body table passes them
local notation "iV" => (Memref.whole Cert.Kernel.main_arg0_scv : Memref Cert.Kernel.sig Kind.scVector Space.hbm Cert.Kernel.S16384 EltTy.i32)
local notation "tV" => (Memref.whole Cert.Kernel.main_v0_scv : Memref Cert.Kernel.sig Kind.scVector Space.hbm Cert.Kernel.S1000 EltTy.f32)
local notation "oV" => (Memref.whole Cert.Kernel.main_v1_scv : Memref Cert.Kernel.sig Kind.scVector Space.hbm Cert.Kernel.S16384 EltTy.f32)
local notation "sI" => (Memref.whole Cert.Kernel.cc0_scratch0 : Memref Cert.Kernel.sig Kind.scVector Space.vmem Cert.Kernel.S1024 EltTy.i32)
local notation "sT" => (Memref.whole Cert.Kernel.cc0_scratch1 : Memref Cert.Kernel.sig Kind.scVector Space.vmem Cert.Kernel.S1000 EltTy.f32)
local notation "sO" => (Memref.whole Cert.Kernel.cc0_scratch2 : Memref Cert.Kernel.sig Kind.scVector Space.vmem Cert.Kernel.S1024 EltTy.f32)

variable [FloatOps F]

section Tile

variable (d : Dev nD) (L : grid0.Coords)
set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ tTok tb d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__lookup L iV (Memref.isWhole_whole _) tV (Memref.isWhole_whole _) oV (Memref.isWhole_whole _)
            sI (Memref.isWhole_whole _) sT (Memref.isWhole_whole _) sO (Memref.isWhole_whole _) cc0_scratch3 cc0_scratch4 cc0_scoped0)
          fun _ => iprop((iRowPts m d (jL L) ∗ tTok tb d (jL L) ∗ oRowPts d (jL L) (outOf m tb d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__lookup_eq_skeleton]; unfold cc0__lookup_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%ft, Hst⟩, ⟨%fo, Hso⟩, Hbufs⟩, ⟨HsemA, HsemB, HsemC, Hsems⟩, HO⟩
  ihave Hmw := ((K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sI (F := F) d L _).symm) $$ Hs
  ihave Hst' := (Entails.of_eq (pts_sT (F := F) d L _).symm) $$ Hst
  ihave Hso' := (Entails.of_eq (pts_sO (F := F) d L _).symm) $$ Hso
  sl_exec
  have hX : ∀ j, ((tile_body.sl.dma0_1 m d L) j).toNat < 1000 := landed_lt m d L hpre
  sl_exec (disch := exact chk_of_lt (F := F) d L _ _ hX _ _)
  repeat (first
    | (iapply (SparseCore.wp_vectorLoadIdx 𝒱₀ (V d (cV L) (jV L)) none Set.univ (base := sT) (S := Finset.univ) (q := fullShare) (Finset.subset_univ _)) $$ Hst'
       iintro Hst'
       sl_exec (disch := exact chk_of_lt (F := F) d L _ _ hX _ _))
    | (iapply (vload_tail (F := F) d L) $$ Hst'
       iintro Hst'
       sl_exec (disch := exact chk_of_lt (F := F) d L _ _ hX _ _)))
  -- what the sixty-four stores wrote, piece by piece; that they tile the value buffer; what the copies landed
  have hG : ∀ p ∈ tile_body.sl.Hso'_64 m tb d L fs ft hX, ∀ x : p.1.shape.Idx,
      p.2 x = Gp (F := F) d L (tile_body.sl.dma0 tb d) (tile_body.sl.dma0_1 m d L) (p.1.emb x) := by
    unfold tile_body.sl.Hso'_64
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals (intro x; exact piece_ok (F := F) d L _ _ _ _ hX _ _ _ x)
  have hcov : ∀ y, ∃ p ∈ tile_body.sl.Hso'_64 m tb d L fs ft hX, y ∈ p.1.set :=
    View.cover_of_tiled _ S16.size rfl
  have hT : ∀ r, tile_body.sl.dma0 tb d r = tb d r := fun _ => rfl
  have hXm : ∀ y, tile_body.sl.dma0_1 m d L y = m (iLoc d) ((rowK1 L).emb y) := fun _ => rfl
  sl_step
  isplitl [Hi' Ht' Ho']
  · isplitl [Hi']; · iapply (Entails.of_eq (pts_iRowK (F := F) d L _)); iexact Hi'
    isplitl [Ht']; · iexact Ht'
    iapply (Entails.of_eq ((pts_oRowK (F := F) d L _).trans (pointsTo_congr
      (out_value (F := F) m tb d L fo _ _ hT hXm _ hG hcov (tile_body.sl.dma2 m tb d L fs ft fo hX) rfl))))
    iexact Ho'
  isplitl [Hs' Hst' Hso' Hbufs]
  · isplitl [Hs']; · iexists _; iexact Hs'
    isplitl [Hst']; · iexists _; iexact Hst'
    isplitl [Hso']; · iexists _; iexact Hso'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch4.sem, (default : HIx 1)) (insert (SemLoc.dma cc0_scratch3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Proof.Kb

end
-- ==== Proof.KbLaunch.lean ====
/-
  The lookup kernel's run: the sixteen subcores' tasks composed by the SparseCore launch theorem with @main on the
  TensorCore (which flattens the table, makes the call and returns). From a launch memory whose index words all
  name rows of the table, every weakly fair execution ends, nothing faulting, with the arguments unchanged and the
  result holding, at entry `j`, the flattened table at the row word `j` of the index array names.

  The split of the call's arrays among the subcores: the sixteen ranges of 1024 entries are pairwise disjoint and
  cover the 16384 entries, so the index array and the result are the separating product of their ranges; the
  flattened table, which every subcore reads whole, is split into sixteen read shares and a remainder, joined back
  when the tasks return theirs.
-/
import proofs.«200106_g78254304133134_cont_9to1_m_1336_10_alg».proof.Proof.KbTile

noncomputable section

namespace Cert.Proof.Kb

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The flattened table as @main's reshape leaves it: the table's entries at the flat shape. -/
def tbl (d : Dev nD) : Buf (Elt F) (tLoc d) := fun i => shapeCast S1000 (m (wLoc d)) shapeCasts_S1000x1_S1000 i

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__lookup (coordsV c s)
          (Memref.whole main_arg0_scv) (Memref.isWhole_whole _) (Memref.whole main_v0_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (tb : (d : Dev nD) → Buf (Elt F) (tLoc d)) (hF : (K (F := F)).Facts) (hpre : PreOK m) :
    (K (F := F)).TileObl (D (F := F)) 𝒱 (P m tb) v₀ 0 := by
  intro d c i O W hO _ _
  simp only [show (P m tb).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m tb d (coordsV ⟨_, hc.1⟩ ⟨_, hc.2⟩) hF hpre O W hO).trans (wp_mono frame _ _ fun _ => obl_post)

omit [FloatOps F] in
theorem rows_disjoint : ∀ i ∈ (Finset.univ : Finset (Fin 16)), ∀ j ∈ (Finset.univ : Finset (Fin 16)), i ≠ j → Disjoint (rowSet i) (rowSet j) :=
  fun i _ j _ h => Rect.part_disjoint hdiv h
omit [FloatOps F] in
theorem rows_cover : (Finset.univ : Finset (Fin 16)).biUnion rowSet = Finset.univ := Rect.biUnion_part hdiv

omit [FloatOps F] in
theorem iPts_rows (d : Dev nD) (f : Buf (Elt F) (iLoc d)) :
    (iLoc d ↦{fullShare} f : sProp 𝕄) = bigSep Finset.univ fun i : Fin 16 => iLoc d ↦[rowSet i]{fullShare} f := by
  rw [← pointsTo_biUnion Finset.univ (ℓ := iLoc d) rowSet rows_disjoint, rows_cover]; try rfl
omit [FloatOps F] in
theorem oPts_rows (d : Dev nD) (f : Buf (Elt F) (oLoc d)) :
    (oLoc d ↦{fullShare} f : sProp 𝕄) = bigSep Finset.univ fun i : Fin 16 => oLoc d ↦[rowSet i]{fullShare} f := by
  rw [← pointsTo_biUnion Finset.univ (ℓ := oLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (tb : (d : Dev nD) → Buf (Elt F) (tLoc d)) : (K (F := F)).VecSplit' (P m tb) 0 := by
  intro d c
  show iprop(iPts m d ∗ tPts tb d ∗ oPts d (m (oLoc d))) ⊢ |={Set.univ}=> iprop(
      (bigSep Finset.univ fun i : Fin ((K (F := F)).nSub 0) =>
        iprop(iRowPts m d (Fin.cast nSub_zero i) ∗ tTok tb d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ tTok tb d (Fin.cast nSub_zero i) ∗ oRowPts d (Fin.cast nSub_zero i) (outOf m tb d)))
          -∗ iprop(iPts m d ∗ tPts tb d ∗ oPts d (outOf m tb d))))
  rw [bigSep_tasks (F := F) (fun i => iprop(iRowPts m d i ∗ tTok tb d i ∗ oRowPts d i (m (oLoc d)))),
    bigSep_tasks (F := F) (fun i => iprop(iRowPts m d i ∗ tTok tb d i ∗ oRowPts d i (outOf m tb d))), bigSep_sep', bigSep_sep', bigSep_sep', bigSep_sep']
  unfold iPts oPts iRowPts oRowPts
  rw [iPts_rows, oPts_rows, oPts_rows]
  unfold tPts tTok
  iintro ⟨Hi, Ht, Ho⟩
  ihave Ht' := (Transfers.pointsTo_toks_split (ℓ := tLoc d) (S := Finset.univ) (f := tb d) fullShare 16) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (Transfers.pointsTo_toks_join (ℓ := tLoc d) (S := Finset.univ) (f := tb d) fullShare 16)
    isplitl [Hrem]; · iexact Hrem
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (tb : (d : Dev nD) → Buf (Elt F) (tLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m tb).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev i' : DevRef τ sig := Proc.devRef .tc (main_arg0 : Ref sig .tc)
abbrev w' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev opFlat : HloOp τ sig (Elt F) := StableHlo.reshape main_arg1 main_v0 rfl shapeCasts_S1000x1_S1000

/-- The TensorCore's arrays, all unscoped. -/
abbrev S4 : Finset (DevRef τ sig) := {i', w', t', o'}

omit [FloatOps F] in
theorem held_S4 (d : Dev nD) (W : Valuation τ sig (Elt F)) :
    (held (T d) S4 W : sProp 𝕄) = iprop((iLoc d ↦{fullShare} W i') ∗ (wLoc d ↦{fullShare} W w') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (wLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hFlat : (opFlat (F := F)).bufs ⊆ S4 := show ({w', t'} : Finset (DevRef τ sig)) ⊆ S4 by decide

theorem flat_i (d : Dev nD) : (opFlat (F := F)).result (V0 m d) i' = m (iLoc d) :=
  (opFlat (F := F)).result_of_not_mem (V0 m d) (b := i') (show i' ∉ ({t'} : Finset (DevRef τ sig)) by decide)
theorem flat_w (d : Dev nD) : (opFlat (F := F)).result (V0 m d) w' = m (wLoc d) :=
  (opFlat (F := F)).result_of_not_mem (V0 m d) (b := w') (show w' ∉ ({t'} : Finset (DevRef τ sig)) by decide)
theorem flat_o (d : Dev nD) : (opFlat (F := F)).result (V0 m d) o' = m (oLoc d) :=
  (opFlat (F := F)).result_of_not_mem (V0 m d) (b := o') (show o' ∉ ({t'} : Finset (DevRef τ sig)) by decide)
theorem flat_t (d : Dev nD) : (opFlat (F := F)).result (V0 m d) t' = tbl m d :=
  StableHlo.reshape_result main_arg1 main_v0 rfl shapeCasts_S1000x1_S1000 _ _ (V0 m d)

theorem st0_eq (tb : (d : Dev nD) → Buf (Elt F) (tLoc d)) (d : Dev nD) :
    (bigSep Finset.univ fun c : Fin ((K (F := F)).nCore 0) => (P m tb).st 0 d c) = iprop(iPts m d ∗ tPts tb d ∗ oPts d (m (oLoc d))) :=
  bigSep_univ_of_subsingleton (0 : Fin 1)
theorem dn0_eq (tb : (d : Dev nD) → Buf (Elt F) (tLoc d)) (d : Dev nD) :
    (bigSep Finset.univ fun c : Fin ((K (F := F)).nCore 0) => (P m tb).dn 0 d c) = iprop(iPts m d ∗ tPts tb d ∗ oPts d (outOf m tb d)) :=
  bigSep_univ_of_subsingleton (0 : Fin 1)

/-- What @main leaves the claim: the arguments at their launch contents, the result at the lookup. -/
abbrev FIN (d : Dev nD) : sProp 𝕄 := iprop((iLoc d ↦{fullShare} m (iLoc d)) ∗ (wLoc d ↦{fullShare} m (wLoc d)) ∗ oLoc d ↦{fullShare} outOf m (tbl m) d)

/-- @main on device `d`'s TensorCore: the table flattened, then the one call. -/
theorem hmain (κ : GSem nD τ sig → ℕ) (d : Dev nD) :
    iprop((K (F := F)).ctx EH (P m (tbl m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opFlat) (S := S4) hFlat (V := V0 m d)) $$ [Hb Hheld]
  · isplitl [Hb]; · iexact Hb
    iexact Hheld
  iintro ⟨Hb, Hheld⟩
  ihave Hh := (Entails.of_eq (held_S4 (F := F) d _)) $$ Hheld
  rw [flat_i, flat_w, flat_o, flat_t]
  icases Hh with ⟨Hi, Hw, Ht, Ho⟩
  rw [wp_ret]
  iapply ((K (F := F)).wp_run (D (F := F)) 𝒱 (EH := EH) (P := P m (tbl m)) κ d 0) $$ [Hst Hi Ht Ho Hw Hb]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m (tbl m) d)) $$ Hdn
  icases Hdn' with ⟨Hi, -, Ho⟩
  imodintro
  isplitl [Hst]; · iexact Hst
  isplitl [Hi]; · iexact Hi
  isplitl [Hw]; · iexact Hw
  iexact Ho

def fq (d : Dev nD) (s' : Phys nD τ sig (Elt F)) : Prop :=
  s'.mem.mem (oLoc d) = outOf m (tbl m) d ∧ s'.mem.mem (iLoc d) = m (iLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Hi, Hw, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := outOf m (tbl m) d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outOf m (tbl m) c ∧ r.2.mem (iLoc c) = m (iLoc c) ∧ r.2.mem (wLoc c) = m (wLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (tbl m)) facts v₀
    (fun q hq => match q with | 0 => nomatch hq)
    (fun q _ => match q with | 0 => tileObl m (tbl m) facts hpre)
    (fun q _ => match q with | 0 => SparseCore.Cfg.VecSplit.of_plain (vecSplit m (tbl m)))
    m ρ main (fun _ => iprop(emp)) (FIN m) (u₀ (F := F)) (sep_elim_left.trans (hu₀ m (tbl m))) (hmain m ρ) (fq m) (hfin m) (QC m) (fun _ h => h)

end Cert.Proof.Kb

end
-- ==== Proof.KiSetup.lean ====
/-
  The lookup kernel as the SparseCore launch theorem sees it: one call, run by one SparseCore's sixteen
  vector subcores at once. Subcore `i` copies the whole flattened table and words [1024 i, 1024 i + 1024) of
  the index array into its own memory, reads the table at those words sixteen lanes at a time into a third
  buffer, and copies that buffer onto entries [1024 i, 1024 i + 1024) of the result.

  What the call's handshakes carry: the TensorCore hands the call the index array, the flattened table and the
  result array whole; subcore `i` is handed its 1024 entries of the index array and of the result, and one of
  sixteen read shares of the table (every subcore reads all of it, none writes it); it hands back the same, its
  entries of the result now holding the table at its words. The sixteen ranges tile the arrays.
-/
import proofs.«200106_g78254304133134_cont_9to1_m_1336_10_alg».proof.Defs
import proofs.«200106_g78254304133134_cont_9to1_m_1336_10_alg».proof.Proof.LookupSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«200106_g78254304133134_cont_9to1_m_1336_10_alg».proof.Proof.Gen.KernelIdeal
import proofs.«200106_g78254304133134_cont_9to1_m_1336_10_alg».proof.Proof.Gen.KernelIdeal.Skeleton

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array and the table (the arguments), the flattened table and the result, as locations of device `d`. -/
abbrev iLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

-- What the flattened table holds when the call is made, per device: a parameter here, fixed where @main is run.
variable (tb : (d : Dev nD) → Buf (Elt F) (tLoc d))

/-- Entry `j` of the result: the flattened table at the row word `j` of the index array names (modulo its height). -/
def outOf (d : Dev nD) : Buf (Elt F) (oLoc d) :=
  fun j => tb d (ValueIdx.ix1 (⟨(m (iLoc d) j).toNat % 1000, Nat.mod_lt _ (by decide)⟩ : Fin 1000))

theorem hdiv : 16 ∣ S16384.size 0 := ⟨1024, rfl⟩
/-- Entries [1024 i, 1024 i + 1024) of a 16384-entry array. -/
abbrev row (i : Fin 16) : Rect S16384 := Rect.part (s := S16384) (a₀ := 0) hdiv i
abbrev rowSet (i : Fin 16) : Finset S16384.Idx := (row i).set

variable [FloatOps F]

abbrev iPts (d : Dev nD) : sProp 𝕄 := iLoc d ↦{fullShare} m (iLoc d)
abbrev tPts (d : Dev nD) : sProp 𝕄 := tLoc d ↦{fullShare} tb d
abbrev oPts (d : Dev nD) (f : Buf (Elt F) (oLoc d)) : sProp 𝕄 := oLoc d ↦{fullShare} f
abbrev iRowPts (d : Dev nD) (i : Fin 16) : sProp 𝕄 := iLoc d ↦[rowSet i]{fullShare} m (iLoc d)
abbrev tTok (d : Dev nD) (i : Fin 16) : sProp 𝕄 := tLoc d ↦{Transfers.shareTok fullShare 16 i} tb d
abbrev oRowPts (d : Dev nD) (i : Fin 16) (f : Buf (Elt F) (oLoc d)) : sProp 𝕄 := oLoc d ↦[rowSet i]{fullShare} f

/-- The one call takes the index array, the flattened table and the result whole, each subcore its range of the
    index array and of the result and a read share of the table, and brings them back, the result at the lookup. -/
def P : (K (F := F)).Pay (nD := nD) (Val := Elt F) (Name := ℕ) (U := UU) where
  st := fun q d _ => match q with | 0 => iprop(iPts m d ∗ tPts tb d ∗ oPts d (m (oLoc d)))
  dn := fun q d _ => match q with | 0 => iprop(iPts m d ∗ tPts tb d ∗ oPts d (outOf m tb d))
  go := fun q d _ i => match q with
    | 0 => iprop(iRowPts m d (Fin.cast nSub_zero i) ∗ tTok tb d (Fin.cast nSub_zero i) ∗ oRowPts d (Fin.cast nSub_zero i) (m (oLoc d)))
  td := fun q d _ i => match q with
    | 0 => iprop(iRowPts m d (Fin.cast nSub_zero i) ∗ tTok tb d (Fin.cast nSub_zero i) ∗ oRowPts d (Fin.cast nSub_zero i) (outOf m tb d))
  x := fun _ _ => iprop(emp)

instance P_storable : (P (F := F) m tb).IsStorable where
  st q d _ := match q with
    | 0 => (inferInstance : BI.Storable (upEmb : UEmb _ 𝕄) iprop(iPts m d ∗ tPts tb d ∗ oPts d (m (oLoc d))))
  dn q d _ := match q with
    | 0 => (inferInstance : BI.Storable (upEmb : UEmb _ 𝕄) iprop(iPts m d ∗ tPts tb d ∗ oPts d (outOf m tb d)))
  go q d _ i := match q with
    | 0 => (inferInstance : BI.Storable (upEmb : UEmb _ 𝕄)
        iprop(iRowPts m d (Fin.cast nSub_zero i) ∗ tTok tb d (Fin.cast nSub_zero i) ∗ oRowPts d (Fin.cast nSub_zero i) (m (oLoc d))))
  td q d _ i := match q with
    | 0 => (inferInstance : BI.Storable (upEmb : UEmb _ 𝕄)
        iprop(iRowPts m d (Fin.cast nSub_zero i) ∗ tTok tb d (Fin.cast nSub_zero i) ∗ oRowPts d (Fin.cast nSub_zero i) (outOf m tb d)))

end Cert.Proof.Ki

end
-- ==== Proof.KiTileBase.lean ====
/-
  The pieces of one vector subcore's task of the lookup, at a symbolic subcore: its ranges of the index array and of the
  result as the body slices them, its own buffers and semaphores taken out of what the launch hands it, and the
  facts about what its loads read and what its stores leave.
-/
import proofs.«200106_g78254304133134_cont_9to1_m_1336_10_alg».proof.Proof.KiSetup

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (tb : (d : Dev nD) → Buf (Elt F) (tLoc d))

-- the kernel's memrefs, spelt as the body table passes them
local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000 EltTy.f32)
local notation "oV" => (Memref.whole Cert.KernelIdeal.main_v1_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S1024 EltTy.i32)
local notation "sT" => (Memref.whole Cert.KernelIdeal.cc0_scratch1 : Memref Cert.KernelIdeal.sig Kind.scVector Space.vmem Cert.KernelIdeal.S1000 EltTy.f32)
local notation "sO" => (Memref.whole Cert.KernelIdeal.cc0_scratch2 : Memref Cert.KernelIdeal.sig Kind.scVector Space.vmem Cert.KernelIdeal.S1024 EltTy.f32)

variable [FloatOps F]

/-- What the proof asks of the launch memory: every word of the index array names a row of the table. -/
def PreOK : Prop := ∀ (d : Dev nD) (j : S16384.Idx), (m (iLoc d) j).toNat < 1000

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev rowK1 (L : grid0.Coords) : Rect S16384 := Rect.unit (s := S16384) (k0_off1 L) S1024.size (k0_off1_inb L)
abbrev rowK2 (L : grid0.Coords) : Rect S16384 := Rect.unit (s := S16384) (k0_off2 L) S1024.size (k0_off2_inb L)
/-- The subcore's words of the index array and its entries of the result, as the body slices them. -/
abbrev iRowK (L : grid0.Coords) : Memref sig .scVector .hbm S1024 .i32 := (iV).slice (rowK1 L) (fun _ => rfl)
abbrev oRowK (L : grid0.Coords) : Memref sig .scVector .hbm S1024 .f32 := (oV).slice (rowK2 L) (fun _ => rfl)

omit [FloatOps F] in
theorem L0_zero : (L 0).val = 0 := by
  have h : (L 0).val < 1 := (L 0).isLt
  omega

omit [FloatOps F] in
theorem rowK1_eq : rowK1 L = row (jL L) := by
  unfold rowK1 row Rect.part Rect.block
  congr 1 <;> funext a
  · rw [k0_off1_eq]
    match a with
    | 0 => simp [Shape.partIx, Shape.partSize, L0_zero L, Nat.mul_comm]
  · match a with
    | 0 => simp [Shape.partSize]
omit [FloatOps F] in
theorem rowK2_eq : rowK2 L = row (jL L) := by
  unfold rowK2 row Rect.part Rect.block
  congr 1 <;> funext a
  · rw [k0_off2_eq]
    match a with
    | 0 => simp [Shape.partIx, Shape.partSize, L0_zero L, Nat.mul_comm]
  · match a with
    | 0 => simp [Shape.partSize]

omit [FloatOps F] in
theorem set_iRowK : (iRowK L).view.set = rowSet (jL L) := by
  show ((iV).view.slice (rowK1 L)).set = (row (jL L)).set
  rw [View.set_slice, rowK1_eq]; exact Finset.map_refl
omit [FloatOps F] in
theorem set_oRowK : (oRowK L).view.set = rowSet (jL L) := by
  show ((oV).view.slice (rowK2 L)).set = (row (jL L)).set
  rw [View.set_slice, rowK2_eq]; exact Finset.map_refl

omit [FloatOps F] in
theorem pts_iRowK (f : Buf (Elt F) (iLoc d)) :
    ((iRowK L).view.loc (V d (cV L) (jV L)) ↦[(iRowK L).view.set]{fullShare} f : sProp 𝕄) = iLoc d ↦[rowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[rowSet (jL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sT (f : Buf (Elt F) ((V d (cV L) (jV L)).loc cc0_scratch1)) :
    ((sT).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- What the index copy lands in the subcore's index buffer are words of the index array, each naming a row. -/
theorem landed_lt (hpre : PreOK m) : ∀ j, ((iRowK L).view.read (Elt F) (m (iLoc d)) j).toNat < 1000 := fun j => by
  have e : (iRowK L).view.read (Elt F) (m (iLoc d)) j = m (iLoc d) ((iRowK L).view.emb j) := (View.read_apply _ _).trans (cast_eq _ _)
  rw [e]; exact hpre d _

omit [FloatOps F] in
/-- Sixteen words loaded from the index buffer, once it holds words that each name a row, name rows. -/
theorem chk_of_lt (fs X : Buf (Elt F) ((V d (cV L) (jV L)).loc cc0_scratch0)) (hX : ∀ j, (X j).toNat < 1000)
    (off : Fin 1 → Nat) (inb : ∀ a, off a + S16.size a ≤ S1024.size a) :
    ∀ (a : Fin 1) (x : S16.Idx), ((![(sI).view.readAt (Elt F) (Rect.unit (s := S1024) off S16.size inb).toLoadRect
      ((sI).view.write (Elt F) fs X Finset.univ)] : Fin 1 → IVec S16 32) a x).toNat < S1000.size a := by
  intro a x
  obtain rfl : a = 0 := Subsingleton.elim _ _
  show ((sI).view.readAt (Elt F) (Rect.unit (s := S1024) off S16.size inb).toLoadRect ((sI).view.write (Elt F) fs X Finset.univ) x).toNat < 1000
  rw [View.readAt_apply]; simp only [Memref.view_whole, View.write_whole_univ, View.read_whole]
  exact hX _

/-- The indexed load as a block's last operation: the library's rule at the trivial continuation. -/
theorem vload_tail {t : Shape} {idxs : Fin S1000.rank → IVec t 32} {h : ∀ a x, (idxs a x).toNat < S1000.size a} {hl : (sT).view.Loads}
    {f : Buf (Elt F) (((sT).access (.whole S1000)).loc (V d (cV L) (jV L)))} {Q : Vec F t .f32 → sProp 𝕄} :
    ((((sT).access (.whole S1000)).loc (V d (cV L) (jV L)) ↦{fullShare} f) : sProp 𝕄)
      ⊢ iprop(((((sT).access (.whole S1000)).loc (V d (cV L) (jV L)) ↦{fullShare} f)
          -∗ wp frame (wpE (defs₀ (F := F)) 𝒱₀ (V d (cV L) (jV L)) none) Set.univ (pure (loadIdx (((sT).access (.whole S1000)).read (Elt F) f) idxs h)) Q)
        -∗ wp frame (wpE (defs₀ (F := F)) 𝒱₀ (V d (cV L) (jV L)) none) Set.univ (SparseCore.vectorLoadIdx sT idxs h hl) Q) := by
  have key := SparseCore.wp_vectorLoadIdx (defs := defs₀ (F := F)) 𝒱₀ (V d (cV L) (jV L)) none Set.univ (base := sT) (idxs := idxs) (h := h) (hl := hl)
    (k := pure) (S := Finset.univ) (q := fullShare) (f := f) (Q := Q) (Finset.subset_univ _)
  rwa [Prog.bind_pure] at key

/-- The value the task computes at position `y` of its value buffer: the table at the row word `y` names. -/
def Gp (T0 : Buf (Elt F) ((V d (cV L) (jV L)).loc cc0_scratch1)) (X : Buf (Elt F) ((V d (cV L) (jV L)).loc cc0_scratch0)) :
    S1024.Idx → Elt F .f32 :=
  fun y => T0 (ValueIdx.ix1 (⟨(X y).toNat % 1000, Nat.mod_lt _ (by decide)⟩ : Fin 1000))

omit [FloatOps F] in
/-- Sixteen table entries read at sixteen words loaded from position `off` of the index buffer are, lane by lane,
    the values `Gp` names at positions `off`, …, `off + 15`. -/
theorem piece_ok (ft T0 : Buf (Elt F) ((V d (cV L) (jV L)).loc cc0_scratch1)) (fs X : Buf (Elt F) ((V d (cV L) (jV L)).loc cc0_scratch0))
    (hX : ∀ j, (X j).toNat < 1000) (off : Fin 1 → Nat) (inb : ∀ a, off a + S16.size a ≤ S1024.size a)
    (h : ∀ a x, ((![(sI).view.readAt (Elt F) (Rect.unit (s := S1024) off S16.size inb).toLoadRect ((sI).view.write (Elt F) fs X Finset.univ)] : Fin 1 → IVec S16 32) a x).toNat < S1000.size a)
    (x : (Rect.unit (s := S1024) off S16.size inb).shape.Idx) :
    loadIdx (View.read (Elt F) ((sT).access (Rect.whole cc0_scratch1.ty.shape)) (View.write (Elt F) (sT).view ft T0 Finset.univ))
      (![(sI).view.readAt (Elt F) (Rect.unit (s := S1024) off S16.size inb).toLoadRect ((sI).view.write (Elt F) fs X Finset.univ)] : Fin 1 → IVec S16 32) h x
    = Gp (F := F) d L T0 X ((Rect.unit (s := S1024) off S16.size inb).emb x) := by
  have hT : View.read (Elt F) ((sT).access (Rect.whole cc0_scratch1.ty.shape)) (View.write (Elt F) (sT).view ft T0 Finset.univ) = T0 := by
    rw [show View.write (Elt F) (sT).view ft T0 Finset.univ = T0 from View.write_whole_univ _ _ _]
    exact Memref.read_access_whole _ _ _
  unfold loadIdx Gp
  rw [hT]
  congr 1
  refine funext fun (a : Fin 1) => ?_
  obtain rfl : a = 0 := Subsingleton.elim _ _
  apply Fin.ext
  show ((sI).view.readAt (Elt F) (Rect.unit (s := S1024) off S16.size inb).toLoadRect ((sI).view.write (Elt F) fs X Finset.univ) x).toNat = (X _).toNat % 1000
  rw [View.readAt_apply]; simp only [Memref.view_whole, View.write_whole_univ, View.read_whole]
  exact (Nat.mod_eq_of_lt (hX _)).symm

omit [FloatOps F] in
/-- The subcore's ranges of the index array and of the result sit at the same entries. -/
theorem emb_rows (y : S1024.Idx) : (rowK1 L).emb y = (rowK2 L).emb y := by
  funext a; apply Fin.ext
  rw [Rect.emb_apply, Rect.emb_apply]
  show (k0_off1 L) a + 1 * (y a).val = (k0_off2 L) a + 1 * (y a).val
  rw [k0_off1_eq, k0_off2_eq]

omit [FloatOps F] in
/-- What the task leaves on its range of the result. The value buffer was written through pieces that cover it, piece
    by piece the values `Gp` names; it was then copied whole onto the range. So entry `i` of the range holds the
    table at the row word `i` of the index array names. -/
theorem out_value (fo : Buf (Elt F) ((V d (cV L) (jV L)).loc cc0_scratch2))
    (T0 : Buf (Elt F) ((V d (cV L) (jV L)).loc cc0_scratch1)) (X : Buf (Elt F) ((V d (cV L) (jV L)).loc cc0_scratch0))
    (hT : ∀ r, T0 r = tb d r) (hXm : ∀ y, X y = m (iLoc d) ((rowK1 L).emb y))
    (Lp : List (View.Piece (Elt F) cc0_scratch2.ty.shape cc0_scratch2.ty.elt))
    (hG : ∀ p ∈ Lp, ∀ x : p.1.shape.Idx, p.2 x = Gp (F := F) d L T0 X (p.1.emb x)) (hcov : ∀ y, ∃ p ∈ Lp, y ∈ p.1.set)
    (Wv : S1024.Idx → Elt F .f32) (hW : Wv = (sO).view.read (Elt F) ((sO).view.writes (Elt F) fo Lp)) :
    ∀ i ∈ rowSet (jL L), (oRowK L).view.writes (Elt F) (m (oLoc d)) [⟨Rect.whole S1024, Wv⟩] i = outOf m tb d i := by
  intro i hi
  have hi' : i ∈ (rowK2 L).set := by rw [rowK2_eq]; exact hi
  obtain ⟨y, rfl⟩ := (rowK2 L).exists_idx_of_mem hi'
  have hval : ∀ x, Wv x = Gp (F := F) d L T0 X x := fun x => by
    rw [hW]; exact View.read_writes_apply_of_pieces (v := (sO).view) (f := fo) _ Lp hG x (hcov x)
  have h1 : (oRowK L).view.read (Elt F) ((oRowK L).view.writes (Elt F) (m (oLoc d)) [⟨Rect.whole S1024, Wv⟩]) y = Gp (F := F) d L T0 X y :=
    View.read_writes_apply_of_pieces (v := (oRowK L).view) (f := m (oLoc d)) _ [⟨Rect.whole S1024, Wv⟩]
      (fun p hp x => by
        obtain rfl := List.mem_singleton.mp hp
        show Wv x = Gp (F := F) d L T0 X ((Rect.whole S1024).emb x)
        rw [Rect.emb_whole_apply]; exact hval x)
      y ⟨_, List.mem_singleton_self _, by rw [Rect.set_whole]; exact Finset.mem_univ _⟩
  have h2 : (oRowK L).view.read (Elt F) ((oRowK L).view.writes (Elt F) (m (oLoc d)) [⟨Rect.whole S1024, Wv⟩]) y
      = (oRowK L).view.writes (Elt F) (m (oLoc d)) [⟨Rect.whole S1024, Wv⟩] ((rowK2 L).idx y) := (View.read_apply _ _).trans (cast_eq _ _)
  rw [← h2, h1]
  unfold Gp outOf
  rw [hT]
  have e : X y = m (iLoc d) ((rowK2 L).idx y) := (hXm y).trans (congrArg (m (iLoc d)) (emb_rows L y))
  exact congrArg (tb d) (congrArg ValueIdx.ix1 (Fin.ext (by show (X y).toNat % 1000 = _; rw [e])))

end Tile

end Cert.Proof.Ki

end
-- ==== Proof.KiTile.lean ====
/-
  One vector subcore's task of the lookup, at a symbolic subcore: from its 1024 words of the index array (each
  naming a row of the table), a read share of the flattened table and its 1024 entries of the result, the task
  ends with those entries holding the table at its words, everything else handed back as it was.

  The body copies the table and the words into the subcore's own buffers and waits for both copies; then, sixty-four
  times, loads sixteen words, reads the table at them and stores the sixteen values; then copies the 1024 values
  onto its entries of the result and waits. The sixty-four stores tile the value buffer, and the value stored at
  position `y` is the table at the row word `y` names: so the buffer, and after the last copy the subcore's
  entries of the result, hold the lookup.
-/
import proofs.«200106_g78254304133134_cont_9to1_m_1336_10_alg».proof.Proof.KiTileBase

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (tb : (d : Dev nD) → Buf (Elt F) (tLoc d))

-- the kernel's memrefs, spelt as the body table passes them
local notation "iV" => (Memref.whole Cert.KernelIdeal.main_arg0_scv : Memref Cert.KernelIdeal.sig Kind.scVector Space.hbm Cert.KernelIdeal.S16384 EltTy.i32)
local notation "tV" => (Memref.whole Cert.KernelIdeal.main_v0_scv : Memref Cert.KernelIdeal.sig Kind.scVector Space.hbm Cert.KernelIdeal.S1000 EltTy.f32)
local notation "oV" => (Memref.whole Cert.KernelIdeal.main_v1_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S1024 EltTy.i32)
local notation "sT" => (Memref.whole Cert.KernelIdeal.cc0_scratch1 : Memref Cert.KernelIdeal.sig Kind.scVector Space.vmem Cert.KernelIdeal.S1000 EltTy.f32)
local notation "sO" => (Memref.whole Cert.KernelIdeal.cc0_scratch2 : Memref Cert.KernelIdeal.sig Kind.scVector Space.vmem Cert.KernelIdeal.S1024 EltTy.f32)

variable [FloatOps F]

section Tile

variable (d : Dev nD) (L : grid0.Coords)
set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ tTok tb d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__lookup L iV (Memref.isWhole_whole _) tV (Memref.isWhole_whole _) oV (Memref.isWhole_whole _)
            sI (Memref.isWhole_whole _) sT (Memref.isWhole_whole _) sO (Memref.isWhole_whole _) cc0_scratch3 cc0_scratch4 cc0_scoped0)
          fun _ => iprop((iRowPts m d (jL L) ∗ tTok tb d (jL L) ∗ oRowPts d (jL L) (outOf m tb d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__lookup_eq_skeleton]; unfold cc0__lookup_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%ft, Hst⟩, ⟨%fo, Hso⟩, Hbufs⟩, ⟨HsemA, HsemB, HsemC, Hsems⟩, HO⟩
  ihave Hmw := ((K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sI (F := F) d L _).symm) $$ Hs
  ihave Hst' := (Entails.of_eq (pts_sT (F := F) d L _).symm) $$ Hst
  ihave Hso' := (Entails.of_eq (pts_sO (F := F) d L _).symm) $$ Hso
  sl_exec
  have hX : ∀ j, ((tile_body.sl.dma0_1 m d L) j).toNat < 1000 := landed_lt m d L hpre
  sl_exec (disch := exact chk_of_lt (F := F) d L _ _ hX _ _)
  repeat (first
    | (iapply (SparseCore.wp_vectorLoadIdx 𝒱₀ (V d (cV L) (jV L)) none Set.univ (base := sT) (S := Finset.univ) (q := fullShare) (Finset.subset_univ _)) $$ Hst'
       iintro Hst'
       sl_exec (disch := exact chk_of_lt (F := F) d L _ _ hX _ _))
    | (iapply (vload_tail (F := F) d L) $$ Hst'
       iintro Hst'
       sl_exec (disch := exact chk_of_lt (F := F) d L _ _ hX _ _)))
  -- what the sixty-four stores wrote, piece by piece; that they tile the value buffer; what the copies landed
  have hG : ∀ p ∈ tile_body.sl.Hso'_64 m tb d L fs ft hX, ∀ x : p.1.shape.Idx,
      p.2 x = Gp (F := F) d L (tile_body.sl.dma0 tb d) (tile_body.sl.dma0_1 m d L) (p.1.emb x) := by
    unfold tile_body.sl.Hso'_64
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals (intro x; exact piece_ok (F := F) d L _ _ _ _ hX _ _ _ x)
  have hcov : ∀ y, ∃ p ∈ tile_body.sl.Hso'_64 m tb d L fs ft hX, y ∈ p.1.set :=
    View.cover_of_tiled _ S16.size rfl
  have hT : ∀ r, tile_body.sl.dma0 tb d r = tb d r := fun _ => rfl
  have hXm : ∀ y, tile_body.sl.dma0_1 m d L y = m (iLoc d) ((rowK1 L).emb y) := fun _ => rfl
  sl_step
  isplitl [Hi' Ht' Ho']
  · isplitl [Hi']; · iapply (Entails.of_eq (pts_iRowK (F := F) d L _)); iexact Hi'
    isplitl [Ht']; · iexact Ht'
    iapply (Entails.of_eq ((pts_oRowK (F := F) d L _).trans (pointsTo_congr
      (out_value (F := F) m tb d L fo _ _ hT hXm _ hG hcov (tile_body.sl.dma2 m tb d L fs ft fo hX) rfl))))
    iexact Ho'
  isplitl [Hs' Hst' Hso' Hbufs]
  · isplitl [Hs']; · iexists _; iexact Hs'
    isplitl [Hst']; · iexists _; iexact Hst'
    isplitl [Hso']; · iexists _; iexact Hso'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch4.sem, (default : HIx 1)) (insert (SemLoc.dma cc0_scratch3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Proof.Ki

end
-- ==== Proof.KiLaunch.lean ====
/-
  The lookup kernel's run: the sixteen subcores' tasks composed by the SparseCore launch theorem with @main on the
  TensorCore (which flattens the table, makes the call and returns). From a launch memory whose index words all
  name rows of the table, every weakly fair execution ends, nothing faulting, with the arguments unchanged and the
  result holding, at entry `j`, the flattened table at the row word `j` of the index array names.

  The split of the call's arrays among the subcores: the sixteen ranges of 1024 entries are pairwise disjoint and
  cover the 16384 entries, so the index array and the result are the separating product of their ranges; the
  flattened table, which every subcore reads whole, is split into sixteen read shares and a remainder, joined back
  when the tasks return theirs.
-/
import proofs.«200106_g78254304133134_cont_9to1_m_1336_10_alg».proof.Proof.KiTile

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The flattened table as @main's reshape leaves it: the table's entries at the flat shape. -/
def tbl (d : Dev nD) : Buf (Elt F) (tLoc d) := fun i => shapeCast S1000 (m (wLoc d)) shapeCasts_S1000x1_S1000 i

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__lookup (coordsV c s)
          (Memref.whole main_arg0_scv) (Memref.isWhole_whole _) (Memref.whole main_v0_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (tb : (d : Dev nD) → Buf (Elt F) (tLoc d)) (hF : (K (F := F)).Facts) (hpre : PreOK m) :
    (K (F := F)).TileObl (D (F := F)) 𝒱 (P m tb) v₀ 0 := by
  intro d c i O W hO _ _
  simp only [show (P m tb).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m tb d (coordsV ⟨_, hc.1⟩ ⟨_, hc.2⟩) hF hpre O W hO).trans (wp_mono frame _ _ fun _ => obl_post)

omit [FloatOps F] in
theorem rows_disjoint : ∀ i ∈ (Finset.univ : Finset (Fin 16)), ∀ j ∈ (Finset.univ : Finset (Fin 16)), i ≠ j → Disjoint (rowSet i) (rowSet j) :=
  fun i _ j _ h => Rect.part_disjoint hdiv h
omit [FloatOps F] in
theorem rows_cover : (Finset.univ : Finset (Fin 16)).biUnion rowSet = Finset.univ := Rect.biUnion_part hdiv

omit [FloatOps F] in
theorem iPts_rows (d : Dev nD) (f : Buf (Elt F) (iLoc d)) :
    (iLoc d ↦{fullShare} f : sProp 𝕄) = bigSep Finset.univ fun i : Fin 16 => iLoc d ↦[rowSet i]{fullShare} f := by
  rw [← pointsTo_biUnion Finset.univ (ℓ := iLoc d) rowSet rows_disjoint, rows_cover]; try rfl
omit [FloatOps F] in
theorem oPts_rows (d : Dev nD) (f : Buf (Elt F) (oLoc d)) :
    (oLoc d ↦{fullShare} f : sProp 𝕄) = bigSep Finset.univ fun i : Fin 16 => oLoc d ↦[rowSet i]{fullShare} f := by
  rw [← pointsTo_biUnion Finset.univ (ℓ := oLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (tb : (d : Dev nD) → Buf (Elt F) (tLoc d)) : (K (F := F)).VecSplit' (P m tb) 0 := by
  intro d c
  show iprop(iPts m d ∗ tPts tb d ∗ oPts d (m (oLoc d))) ⊢ |={Set.univ}=> iprop(
      (bigSep Finset.univ fun i : Fin ((K (F := F)).nSub 0) =>
        iprop(iRowPts m d (Fin.cast nSub_zero i) ∗ tTok tb d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ tTok tb d (Fin.cast nSub_zero i) ∗ oRowPts d (Fin.cast nSub_zero i) (outOf m tb d)))
          -∗ iprop(iPts m d ∗ tPts tb d ∗ oPts d (outOf m tb d))))
  rw [bigSep_tasks (F := F) (fun i => iprop(iRowPts m d i ∗ tTok tb d i ∗ oRowPts d i (m (oLoc d)))),
    bigSep_tasks (F := F) (fun i => iprop(iRowPts m d i ∗ tTok tb d i ∗ oRowPts d i (outOf m tb d))), bigSep_sep', bigSep_sep', bigSep_sep', bigSep_sep']
  unfold iPts oPts iRowPts oRowPts
  rw [iPts_rows, oPts_rows, oPts_rows]
  unfold tPts tTok
  iintro ⟨Hi, Ht, Ho⟩
  ihave Ht' := (Transfers.pointsTo_toks_split (ℓ := tLoc d) (S := Finset.univ) (f := tb d) fullShare 16) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (Transfers.pointsTo_toks_join (ℓ := tLoc d) (S := Finset.univ) (f := tb d) fullShare 16)
    isplitl [Hrem]; · iexact Hrem
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (tb : (d : Dev nD) → Buf (Elt F) (tLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m tb).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev i' : DevRef τ sig := Proc.devRef .tc (main_arg0 : Ref sig .tc)
abbrev w' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev opFlat : HloOp τ sig (Elt F) := StableHlo.reshape main_arg1 main_v0 rfl shapeCasts_S1000x1_S1000

/-- The TensorCore's arrays, all unscoped. -/
abbrev S4 : Finset (DevRef τ sig) := {i', w', t', o'}

omit [FloatOps F] in
theorem held_S4 (d : Dev nD) (W : Valuation τ sig (Elt F)) :
    (held (T d) S4 W : sProp 𝕄) = iprop((iLoc d ↦{fullShare} W i') ∗ (wLoc d ↦{fullShare} W w') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (wLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hFlat : (opFlat (F := F)).bufs ⊆ S4 := show ({w', t'} : Finset (DevRef τ sig)) ⊆ S4 by decide

theorem flat_i (d : Dev nD) : (opFlat (F := F)).result (V0 m d) i' = m (iLoc d) :=
  (opFlat (F := F)).result_of_not_mem (V0 m d) (b := i') (show i' ∉ ({t'} : Finset (DevRef τ sig)) by decide)
theorem flat_w (d : Dev nD) : (opFlat (F := F)).result (V0 m d) w' = m (wLoc d) :=
  (opFlat (F := F)).result_of_not_mem (V0 m d) (b := w') (show w' ∉ ({t'} : Finset (DevRef τ sig)) by decide)
theorem flat_o (d : Dev nD) : (opFlat (F := F)).result (V0 m d) o' = m (oLoc d) :=
  (opFlat (F := F)).result_of_not_mem (V0 m d) (b := o') (show o' ∉ ({t'} : Finset (DevRef τ sig)) by decide)
theorem flat_t (d : Dev nD) : (opFlat (F := F)).result (V0 m d) t' = tbl m d :=
  StableHlo.reshape_result main_arg1 main_v0 rfl shapeCasts_S1000x1_S1000 _ _ (V0 m d)

theorem st0_eq (tb : (d : Dev nD) → Buf (Elt F) (tLoc d)) (d : Dev nD) :
    (bigSep Finset.univ fun c : Fin ((K (F := F)).nCore 0) => (P m tb).st 0 d c) = iprop(iPts m d ∗ tPts tb d ∗ oPts d (m (oLoc d))) :=
  bigSep_univ_of_subsingleton (0 : Fin 1)
theorem dn0_eq (tb : (d : Dev nD) → Buf (Elt F) (tLoc d)) (d : Dev nD) :
    (bigSep Finset.univ fun c : Fin ((K (F := F)).nCore 0) => (P m tb).dn 0 d c) = iprop(iPts m d ∗ tPts tb d ∗ oPts d (outOf m tb d)) :=
  bigSep_univ_of_subsingleton (0 : Fin 1)

/-- What @main leaves the claim: the arguments at their launch contents, the result at the lookup. -/
abbrev FIN (d : Dev nD) : sProp 𝕄 := iprop((iLoc d ↦{fullShare} m (iLoc d)) ∗ (wLoc d ↦{fullShare} m (wLoc d)) ∗ oLoc d ↦{fullShare} outOf m (tbl m) d)

/-- @main on device `d`'s TensorCore: the table flattened, then the one call. -/
theorem hmain (κ : GSem nD τ sig → ℕ) (d : Dev nD) :
    iprop((K (F := F)).ctx EH (P m (tbl m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opFlat) (S := S4) hFlat (V := V0 m d)) $$ [Hb Hheld]
  · isplitl [Hb]; · iexact Hb
    iexact Hheld
  iintro ⟨Hb, Hheld⟩
  ihave Hh := (Entails.of_eq (held_S4 (F := F) d _)) $$ Hheld
  rw [flat_i, flat_w, flat_o, flat_t]
  icases Hh with ⟨Hi, Hw, Ht, Ho⟩
  rw [wp_ret]
  iapply ((K (F := F)).wp_run (D (F := F)) 𝒱 (EH := EH) (P := P m (tbl m)) κ d 0) $$ [Hst Hi Ht Ho Hw Hb]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m (tbl m) d)) $$ Hdn
  icases Hdn' with ⟨Hi, -, Ho⟩
  imodintro
  isplitl [Hst]; · iexact Hst
  isplitl [Hi]; · iexact Hi
  isplitl [Hw]; · iexact Hw
  iexact Ho

def fq (d : Dev nD) (s' : Phys nD τ sig (Elt F)) : Prop :=
  s'.mem.mem (oLoc d) = outOf m (tbl m) d ∧ s'.mem.mem (iLoc d) = m (iLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Hi, Hw, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := outOf m (tbl m) d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outOf m (tbl m) c ∧ r.2.mem (iLoc c) = m (iLoc c) ∧ r.2.mem (wLoc c) = m (wLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (tbl m)) facts v₀
    (fun q hq => match q with | 0 => nomatch hq)
    (fun q _ => match q with | 0 => tileObl m (tbl m) facts hpre)
    (fun q _ => match q with | 0 => SparseCore.Cfg.VecSplit.of_plain (vecSplit m (tbl m)))
    m ρ main (fun _ => iprop(emp)) (FIN m) (u₀ (F := F)) (sep_elim_left.trans (hu₀ m (tbl m))) (hmain m ρ) (fq m) (hfin m) (QC m) (fun _ h => h)

end Cert.Proof.Ki

end
-- ==== Proof.lean ====
/-
  The certificate's claim for the embedding lookup `out[j] = W[idx[j], 0]` (idx : 16384 words, W : 1000 rows of one
  column), under the precondition that every table entry is finite and every index word lies in [0, 999].

  The kernel runs on one SparseCore's sixteen vector subcores: subcore `i` looks up words [1024 i, 1024 i + 1024) in
  its own copy of the flattened table and writes the values onto the same range of the result. The reference wraps
  negative words, gathers rows, and masks words outside [0, 999] with a filler; on the words the precondition admits
  it reads row `idx[j]` too. Both sides are therefore the one function `Lookup.G` of the argument arrays — pure data
  movement, so nothing is asked of the table's entries, and the precondition is used only for the index range (which
  is also what lets every subcore's indexed loads proceed).

  The three frames are the runs with the result dropped; the idealization rewrote nothing, so `preserves` is `True`.
-/
import proofs.«200106_g78254304133134_cont_9to1_m_1336_10_alg».proof.Defs
import proofs.«200106_g78254304133134_cont_9to1_m_1336_10_alg».proof.Proof.Gen.Kernel
import proofs.«200106_g78254304133134_cont_9to1_m_1336_10_alg».proof.Proof.Gen.Kernel.Skeleton
import proofs.«200106_g78254304133134_cont_9to1_m_1336_10_alg».proof.Proof.Gen.KernelIdeal
import proofs.«200106_g78254304133134_cont_9to1_m_1336_10_alg».proof.Proof.Gen.KernelIdeal.Skeleton
import proofs.«200106_g78254304133134_cont_9to1_m_1336_10_alg».proof.Proof.Gen.ReferenceIdeal
import proofs.«200106_g78254304133134_cont_9to1_m_1336_10_alg».proof.Proof.Gen.Pre_input_domain
import proofs.«200106_g78254304133134_cont_9to1_m_1336_10_alg».proof.Proof.LookupSpec
import proofs.«200106_g78254304133134_cont_9to1_m_1336_10_alg».proof.Proof.PreRange
import proofs.«200106_g78254304133134_cont_9to1_m_1336_10_alg».proof.Proof.RefRun
import proofs.«200106_g78254304133134_cont_9to1_m_1336_10_alg».proof.Proof.KbLaunch
import proofs.«200106_g78254304133134_cont_9to1_m_1336_10_alg».proof.Proof.KiLaunch
import Idealize.ShloMosaic.Lib.Pipeline.Value
import Idealize.ShloMosaic.Adequacy
import Idealize.ShloMosaic.Init

noncomputable section

namespace Cert.Proof

open Idealize.ShloMosaic Idealize.SL.Sem

/-- The flattened table read at row `r` is the table at `(r, 0)`: so the kernel's result, stated over the flattened
    table, is the lookup `Lookup.G` of the two argument arrays. -/
theorem outOf_eq_G (m : (ℓ : Loc Cert.KernelIdeal.nD Cert.KernelIdeal.τ Cert.KernelIdeal.sig) → Buf (Elt Ideal) ℓ) (d : Dev Cert.KernelIdeal.nD) :
    Ki.outOf m (Ki.tbl m) d = Lookup.G (m (Ki.iLoc d)) (m (Ki.wLoc d)) := by
  funext j
  unfold Ki.outOf Ki.tbl Lookup.G Lookup.rowOf
  exact shapeCast_apply _ _ _ _ (by
    refine (Shape.rowMajor_val_two (d := ![1000, 1]) _).trans (Eq.trans ?_ (Shape.rowMajor_val_one (d := ![1000]) _).symm)
    exact Nat.mul_one _)

theorem frame_k : Cert.frame_Kernel := fun m g hpre =>
  (θ_run Cert.Kernel.defs _ _).mono (fun _ h c => ⟨(h c).2.1, (h c).2.2⟩)
    (Kb.run_main (F := Bits) m g (fun d j => PreRange.lt_of_pre _ _ (hpre d) j))

theorem frame_ki : Cert.frame_KernelIdeal := fun m g hpre =>
  (θ_run Cert.KernelIdeal.defs _ _).mono (fun _ h c => ⟨(h c).2.1, (h c).2.2⟩)
    (Ki.run_main (F := Ideal) m g (fun d j => PreRange.lt_of_pre _ _ (hpre d) j))

theorem frame_ri : Cert.frame_ReferenceIdeal := fun m g _ => RefRun.run_frame m g

theorem preserves : Cert.preserves_Kernel_KernelIdeal := trivial

/-- From memories agreeing on the arguments both programs end with the result `Lookup.G` of them. -/
theorem algebraic : Cert.algebraic_KernelIdeal_ReferenceIdeal := by
  intro m g m' g' hpre hagree
  have hin : ∀ (d : Dev Cert.KernelIdeal.nD) (j : Cert.KernelIdeal.S16384.Idx), (m (Ki.iLoc d) j).toNat < 1000 :=
    fun d j => PreRange.lt_of_pre _ _ (hpre d) j
  refine ⟨fun c => Ki.outOf m (Ki.tbl m) c, ?_, ?_⟩
  · exact (θ_run Cert.KernelIdeal.defs _ _).mono (fun _ h c => h c) (Ki.run_main (F := Ideal) m g hin)
  · refine (θ_run Cert.ReferenceIdeal.defs _ _).mono (fun _ h c => ⟨(h c).1.trans ?_, (h c).2.1, (h c).2.2⟩)
      (RefRun.run m' g' (fun c j => by rw [(hagree c).1]; exact hin c j))
    rw [(hagree c).1, (hagree c).2]
    exact (outOf_eq_G m c).symm

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
